-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)) (v1 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_v26) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v36) = v0 c
          ∧ r.2.mem ((c.tc : Thread Cert.ReferenceIdeal.nD Cert.ReferenceIdeal.τ).loc Cert.ReferenceIdeal.main_v23) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S192x128 : Shape := ⟨2, ![192, 128]⟩
abbrev S128x64 : Shape := ⟨2, ![128, 64]⟩
abbrev S64 : Shape := ⟨1, ![64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S800000x16 : S_.BroadcastsInDim S800000x16 (![] : Fin 0 → Fin S800000x16.rank)
  reducesTo_S800000x16_S_d0_1 : S800000x16.ReducesTo [0, 1] S_
  bcast_S_S144x128 : S_.BroadcastsInDim S144x128 (![] : Fin 0 → Fin S144x128.rank)
  reducesTo_S144x128_S_d0_1 : S144x128.ReducesTo [0, 1] S_
  bcast_S_S128 : S_.BroadcastsInDim S128 (![] : Fin 0 → Fin S128.rank)
  reducesTo_S128_S_d0 : S128.ReducesTo [0] S_
  bcast_S_S192x128 : S_.BroadcastsInDim S192x128 (![] : Fin 0 → Fin S192x128.rank)
  reducesTo_S192x128_S_d0_1 : S192x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg8 : FVec F S64 .f32) (main_v33 : IVec S_ 1) : IVec S_ 1 :=
  let main_v34 : FVec F S64 .f32 := Host.absf main_arg8
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg5 : FVec F S192x128 .f32) (main_arg6 : FVec F S128 .f32) (main_arg7 : FVec F S128x64 .f32) (main_arg8 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S192x128 .f32 := Host.absf main_arg5
  let main_cst_6 : FVec F S_ .f32 := constant S_ .f32 0x7F800000#32
  let main_v20 : FVec F S192x128 .f32 := broadcastInDim S192x128 ![] bcast_S_S192x128 main_cst_6
  let main_v21 : IVec S192x128 1 := cmpf .olt main_v19 main_v20
  let main_c_7 : IVec S_ 1 := constantI S_ 1 1#1
  let main_v22 : IVec S_ 1 := (fun x v => Host.reduce IntOp.andi x v reducesTo_S192x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg7
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg8 main_v33

def fn {F : FTy → Type} [FloatOps F] (main_arg0 : FVec F S50000x64 .f32) (main_arg1 : IVec S2x800000 32) (main_arg2 : FVec F S800000x16 .f32) (main_arg3 : FVec F S144x128 .f32) (main_arg4 : FVec F S128 .f32) (main_arg5 : FVec F S192x128 .f32) (main_arg6 : FVec F S128 .f32) (main_arg7 : FVec F S128x64 .f32) (main_arg8 : FVec F S64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S800000x16 .f32 := Host.absf main_arg2
  let main_cst_0 : FVec F S_ .f32 := constant S_ .f32 0x7F800000#32
  let main_v5 : FVec F S800000x16 .f32 := broadcastInDim S800000x16 ![] bcast_S_S800000x16 main_cst_0
  let main_v6 : IVec S800000x16 1 := cmpf .olt main_v4 main_v5
  let main_c_1 : IVec S_ 1 := constantI S_ 1 1#1
  let main_v7 : IVec S_ 1 := (fun x v => Host.reduce IntOp.andi x v reducesTo_S800000x16_S_d0_1 h_S_) main_v6 main_c_1
  let main_v8 : IVec S_ 1 := andi main_v3 main_v7
  let main_v9 : FVec F S144x128 .f32 := Host.absf main_arg3
  let main_cst_2 : FVec F S_ .f32 := constant S_ .f32 0x7F800000#32
  let main_v10 : FVec F S144x128 .f32 := broadcastInDim S144x128 ![] bcast_S_S144x128 main_cst_2
  let main_v11 : IVec S144x128 1 := cmpf .olt main_v9 main_v10
  let main_c_3 : IVec S_ 1 := constantI S_ 1 1#1
  let main_v12 : IVec S_ 1 := (fun x v => Host.reduce IntOp.andi x v reducesTo_S144x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_v13 main_v16
-- ==== Kernel.lean ====
abbrev S50000x64 : Shape := ⟨2, ![50000, 64]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S192x128 : Shape := ⟨2, ![192, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S64x128 : Shape := ⟨2, ![64, 128]⟩
abbrev S16x128 : Shape := ⟨2, ![16, 128]⟩
abbrev S800000x128 : Shape := ⟨2, ![800000, 128]⟩
abbrev S10000x64 : Shape := ⟨2, ![10000, 64]⟩
abbrev S10000x16 : Shape := ⟨2, ![10000, 16]⟩
abbrev S10000x128 : Shape := ⟨2, ![10000, 128]⟩
abbrev S1x128 : Shape := ⟨2, ![1, 128]⟩
abbrev S50000x128 : Shape := ⟨2, ![50000, 128]⟩
abbrev S128x128 : Shape := ⟨2, ![128, 128]⟩
abbrev S1x64 : Shape := ⟨2, ![1, 64]⟩

abbrev nBuf : Space → Nat
  | .hbm => 51
  | .vmem => 23
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x16, .f32⟩
  | .hbm, ⟨3, _⟩ => ⟨S144x128, .f32⟩
  | .hbm, ⟨4, _⟩ => ⟨S128, .f32⟩
  | .hbm, ⟨5, _⟩ => ⟨S192x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S50000x64, .bf16⟩
  | .hbm, ⟨14, _⟩ => ⟨S_, .i32⟩
  | .hbm, ⟨15, _⟩ => ⟨S800000, .i32⟩
  | .hbm, ⟨16, _⟩ => ⟨S800000, .i1⟩
  | .hbm, ⟨17, _⟩ => ⟨S_, .i32⟩
  | .hbm, ⟨18, _⟩ => ⟨S800000, .i32⟩
  | .hbm, ⟨19, _⟩ => ⟨S800000, .i32⟩
  | .hbm, ⟨20, _⟩ => ⟨S800000, .i32⟩
  | .hbm, ⟨21, _⟩ => ⟨S800000x1, .i32⟩
  | .hbm, ⟨22, _⟩ => ⟨S800000x64, .bf16⟩
  | .hbm, ⟨23, _⟩ => ⟨S_, .i32⟩
  | .hbm, ⟨24, _⟩ => ⟨S800000, .i32⟩
  | .hbm, ⟨25, _⟩ => ⟨S800000, .i1⟩
  | .hbm, ⟨26, _⟩ => ⟨S_, .i32⟩
  | .hbm, ⟨27, _⟩ => ⟨S800000, .i32⟩
  | .hbm, ⟨28, _⟩ => ⟨S800000, .i32⟩
  | .hbm, ⟨29, _⟩ => ⟨S800000, .i32⟩
  | .hbm, ⟨30, _⟩ => ⟨S800000x1, .i32⟩
  | .hbm, ⟨31, _⟩ => ⟨S800000x64, .bf16⟩
  | .hbm, ⟨32, _⟩ => ⟨S800000x16, .bf16⟩
  | .hbm, ⟨33, _⟩ => ⟨S64x128, .f32⟩
  | .hbm, ⟨34, _⟩ => ⟨S64x128, .bf16⟩
  | .hbm, ⟨35, _⟩ => ⟨S64x128, .f32⟩
  | .hbm, ⟨36, _⟩ => ⟨S64x128, .bf16⟩
  | .hbm, ⟨37, _⟩ => ⟨S16x128, .f32⟩
  | .hbm, ⟨38, _⟩ => ⟨S16x128, .bf16⟩
  | .hbm, ⟨39, _⟩ => ⟨S800000x128, .f32⟩
  | .hbm, ⟨40, _⟩ => ⟨S_, .f32⟩
  | .hbm, ⟨41, _⟩ => ⟨S50000x128, .f32⟩
  | .hbm, ⟨42, _⟩ => ⟨S800000x1, .i32⟩
  | .hbm, ⟨43, _⟩ => ⟨S50000x128, .f32⟩
  | .hbm, ⟨44, _⟩ => ⟨S64x128, .f32⟩
  | .hbm, ⟨45, _⟩ => ⟨S64x128, .bf16⟩
  | .hbm, ⟨46, _⟩ => ⟨S128x128, .f32⟩
  | .hbm, ⟨47, _⟩ => ⟨S128x128, .bf16⟩
  | .hbm, ⟨48, _⟩ => ⟨S128x64, .bf16⟩
  | .hbm, ⟨49, _⟩ => ⟨S50000x128, .bf16⟩
  | .hbm, ⟨50, _⟩ => ⟨S50000x64, .f32⟩
  | .local _ .vmem, ⟨0, _⟩ => ⟨S10000x64, .bf16⟩
  | .local _ .vmem, ⟨1, _⟩ => ⟨S10000x64, .bf16⟩
  | .local _ .vmem, ⟨2, _⟩ => ⟨S10000x64, .bf16⟩
  | .local _ .vmem, ⟨3, _⟩ => ⟨S10000x64, .bf16⟩
  | .local _ .vmem, ⟨4, _⟩ => ⟨S10000x16, .bf16⟩
  | .local _ .vmem, ⟨5, _⟩ => ⟨S10000x16, .bf16⟩
  | .local _ .vmem, ⟨6, _⟩ => ⟨S64x128, .bf16⟩
  | .local _ .vmem, ⟨7, _⟩ => ⟨S64x128, .bf16⟩
  | .local _ .vmem, ⟨8, _⟩ => ⟨S16x128, .bf16⟩
  | .local _ .vmem, ⟨9, _⟩ => ⟨S128, .f32⟩
  | .local _ .vmem, ⟨10, _⟩ => ⟨S10000x128, .f32⟩
  | .local _ .vmem, ⟨11, _⟩ => ⟨S10000x128, .f32⟩
  | .local _ .vmem, ⟨12, _⟩ => ⟨S10000x64, .bf16⟩
  | .local _ .vmem, ⟨13, _⟩ => ⟨S10000x64, .bf16⟩
  | .local _ .vmem, ⟨14, _⟩ => ⟨S10000x128, .bf16⟩
  | .local _ .vmem, ⟨15, _⟩ => ⟨S10000x128, .bf16⟩
  | .local _ .vmem, ⟨16, _⟩ => ⟨S64x128, .bf16⟩
  | .local _ .vmem, ⟨17, _⟩ => ⟨S128x128, .bf16⟩
  | .local _ .vmem, ⟨18, _⟩ => ⟨S128, .f32⟩
  | .local _ .vmem, ⟨19, _⟩ => ⟨S128x64, .bf16⟩
  | .local _ .vmem, ⟨20, _⟩ => ⟨S64, .f32⟩
  | .local _ .vmem, ⟨21, _⟩ => ⟨S10000x64, .f32⟩
  | .local _ .vmem, ⟨22, _⟩ => ⟨S10000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_c_1 : Ref sig .tc := ⟨.hbm, 23, rfl⟩
abbrev main_v12 : Ref sig .tc := ⟨.hbm, 24, rfl⟩
abbrev main_v13 : Ref sig .tc := ⟨.hbm, 25, rfl⟩
abbrev main_c_2 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22

abbrev nD : Nat := 1
abbrev τ : Topo := Topo.v7x

variable {F : FTy → Type} [FloatOps F]

abbrev grid0 : Pipeline.Grid := ⟨1, ![80], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x64 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x16 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S10000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![5], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S64x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S10000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bitsLt_bf16_f32 : FTy.bits .bf16 < FTy.bits .f32
  bcast_S_S800000 : S_.BroadcastsInDim S800000 (![] : Fin 0 → Fin S800000.rank)
  bcast_S800000_S800000x1_0 : S800000.BroadcastsInDim S800000x1 (![0] : Fin 1 → Fin S800000x1.rank)
  slices_S144x128_S64x128_0_0 : S144x128.Slices ![0, 0] S64x128
  slices_S144x128_S64x128_64_0 : S144x128.Slices ![64, 0] S64x128
  slices_S144x128_S16x128_128_0 : S144x128.Slices ![128, 0] S16x128
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S64x128_S64x128_0_0 : ∀ a, (![0, 0] : Fin 2 → Nat) a + S64x128.size a ≤ S64x128.size a
  h_S64x128 : 0 < S64x128.numel
  shapeCasts_S64x128_S64x128 : S64x128.ShapeCasts S64x128
  inb_S16x128_S16x128_0_0 : ∀ a, (![0, 0] : Fin 2 → Nat) a + S16x128.size a ≤ S16x128.size a
  h_S16x128 : 0 < S16x128.numel
  shapeCasts_S16x128_S16x128 : S16x128.ShapeCasts S16x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S10000x128_S10000x128_0_0 : ∀ a, (![0, 0] : Fin 2 → Nat) a + S10000x128.size a ≤ S10000x128.size a
  h_S10000x128 : 0 < S10000x128.numel
  bcast_S_S50000x128 : S_.BroadcastsInDim S50000x128 (![] : Fin 0 → Fin S50000x128.rank)
  slices_S192x128_S64x128_0_0 : S192x128.Slices ![0, 0] S64x128
  slices_S192x128_S128x128_64_0 : S192x128.Slices ![64, 0] S128x128
  shapeCasts_S10000x128_S10000x128 : S10000x128.ShapeCasts S10000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128x64_S128x64_0_0 : ∀ a, (![0, 0] : Fin 2 → Nat) a + S128x64.size a ≤ S128x64.size a
  h_S128x64 : 0 < S128x64.numel
  shapeCasts_S128x64_S128x64 : S128x64.ShapeCasts S128x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  gather_S50000x64_S800000x1_S800000x64_1_0_n_n_0_1_164_wf : GatherDims.WF S50000x64 S800000x1 S800000x64 [1] [0] [] [0] [] 1 ![1, 64]
  dot_S10000x64_S64x128_S10000x128_1_0_0_1_n_n_wf : DotDims.WF S10000x64 S64x128 S10000x128 [1] [0] [0] [1] [] []
  dot_S10000x16_S16x128_S10000x128_1_0_0_1_n_n_wf : DotDims.WF S10000x16 S16x128 S10000x128 [1] [0] [0] [1] [] []
  scatter_S50000x128_S800000x1_S800000x128_1_0_0_1_wf : ScatterDims.WF S50000x128 S800000x1 S800000x128 [1] [0] [0] 1
  dot_S10000x128_S128x128_S10000x128_1_0_0_1_n_n_wf : DotDims.WF S10000x128 S128x128 S10000x128 [1] [0] [0] [1] [] []
  dot_S10000x128_S128x64_S10000x64_1_0_0_1_n_n_wf : DotDims.WF S10000x128 S128x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S800000x64.size a
  hwx0_0 : ∀ i : grid0.Coords, EltTy.bits .bf16 = 32 ∨ (Rect.block (s := S800000x64) S10000x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x64.size a ≤ S800000x64.size a
  hwx0_1 : ∀ i : grid0.Coords, EltTy.bits .bf16 = 32 ∨ (Rect.block (s := S800000x64) S10000x64.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S800000x16.size a
  hwx0_2 : ∀ i : grid0.Coords, EltTy.bits .bf16 = 32 ∨ (Rect.block (s := S800000x16) S10000x16.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x128.size a ≤ S64x128.size a
  hwx0_3 : ∀ i : grid0.Coords, EltTy.bits .bf16 = 32 ∨ (Rect.block (s := S64x128) S64x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x128.size a ≤ S64x128.size a
  hwx0_4 : ∀ i : grid0.Coords, EltTy.bits .bf16 = 32 ∨ (Rect.block (s := S64x128) S64x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S16x128.size a ≤ S16x128.size a
  hwx0_5 : ∀ i : grid0.Coords, EltTy.bits .bf16 = 32 ∨ (Rect.block (s := S16x128) S16x128.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128.size a ≤ S128.size a
  hwx0_6 : ∀ i : grid0.Coords, EltTy.bits .f32 = 32 ∨ (Rect.block (s := S128) S128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S10000x128.size a ≤ S800000x128.size a
  hwx0_7 : ∀ i : grid0.Coords, EltTy.bits .f32 = 32 ∨ (Rect.block (s := S800000x128) S10000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S50000x64.size a
  hwx1_0 : ∀ i : grid1.Coords, EltTy.bits .bf16 = 32 ∨ (Rect.block (s := S50000x64) S10000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S50000x128.size a
  hwx1_1 : ∀ i : grid1.Coords, EltTy.bits .bf16 = 32 ∨ (Rect.block (s := S50000x128) S10000x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64x128.size a ≤ S64x128.size a
  hwx1_2 : ∀ i : grid1.Coords, EltTy.bits .bf16 = 32 ∨ (Rect.block (s := S64x128) S64x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .bf16 = 32 ∨ (Rect.block (s := S128x64) S128x64.size (cc1_transform_5 i) (hinb1_5 i)).WholeWords (EltTy.packing .bf16)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64.size a ≤ S64.size a
  hwx1_6 : ∀ i : grid1.Coords, EltTy.bits .f32 = 32 ∨ (Rect.block (s := S64) S64.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S10000x64.size a ≤ S50000x64.size a
  hwx1_7 : ∀ i : grid1.Coords, EltTy.bits .f32 = 32 ∨ (Rect.block (s := S50000x64) S10000x64.size (cc1_transform_7 i) (hinb1_7 i)).WholeWords (EltTy.packing .f32)

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x16_S16x128_S10000x128_1_0_0_1_n_n : DotDims S10000x16 S16x128 S10000x128 where
  lhsContracting := [1]
  rhsContracting := [0]
  lhsNonContracting := [0]
  rhsNonContracting := [1]
  lhsBatch := []
  rhsBatch := []
  wf := dot_S10000x16_S16x128_S10000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf

abbrev win0_0 : Pipeline.Window sig grid0 :=
  Pipeline.Window.ofSpec (Memref.whole main_v11) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S10000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v19) S10000x16.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S64x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v23) S64x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25) S16x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg4) S128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v26) S10000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v4) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v35) S10000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S64x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v33) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S64.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v36) S10000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S50000x64 : Shape := ⟨2, ![50000, 64]⟩
abbrev S2x800000 : Shape := ⟨2, ![2, 800000]⟩
abbrev S800000x16 : Shape := ⟨2, ![800000, 16]⟩
abbrev S144x128 : Shape := ⟨2, ![144, 128]⟩
abbrev S128 : Shape := ⟨1, ![128]⟩
abbrev S192x128 : Shape := ⟨2, ![192, 128]⟩
abbrev S128x64 : Shape := ⟨2, ![128, 64]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S800000x144 : Shape := ⟨2, ![800000, 144]⟩
abbrev S800000x128 : Shape := ⟨2, ![800000, 128]⟩
abbrev S1x128 : Shape := ⟨2, ![1, 128]⟩
abbrev S50000x128 : Shape := ⟨2, ![50000, 128]⟩
abbrev S50000x192 : Shape := ⟨2, ![50000, 192]⟩
abbrev S1x64 : Shape := ⟨2, ![1, 64]⟩

abbrev nBuf : Space → Nat
  | .hbm => 55
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S2x800000, .i32⟩
  | .hbm, ⟨2, _⟩ => ⟨S800000x16, .f32⟩
  | .hbm, ⟨3, _⟩ => ⟨S144x128, .f32⟩
  | .hbm, ⟨4, _⟩ => ⟨S128, .f32⟩
  | .hbm, ⟨5, _⟩ => ⟨S192x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S1x800000, .i32⟩
  | .hbm, ⟨10, _⟩ => ⟨S800000, .i32⟩
  | .hbm, ⟨11, _⟩ => ⟨S1x800000, .i32⟩
  | .hbm, ⟨12, _⟩ => ⟨S800000, .i32⟩
  | .hbm, ⟨13, _⟩ => ⟨S_, .i32⟩
  | .hbm, ⟨14, _⟩ => ⟨S800000, .i32⟩
  | .hbm, ⟨15, _⟩ => ⟨S800000, .i1⟩
  | .hbm, ⟨16, _⟩ => ⟨S_, .i32⟩
  | .hbm, ⟨17, _⟩ => ⟨S800000, .i32⟩
  | .hbm, ⟨18, _⟩ => ⟨S800000, .i32⟩
  | .hbm, ⟨19, _⟩ => ⟨S800000, .i32⟩
  | .hbm, ⟨20, _⟩ => ⟨S800000x1, .i32⟩
  | .hbm, ⟨21, _⟩ => ⟨S800000x64, .f32⟩
  | .hbm, ⟨22, _⟩ => ⟨S_, .i32⟩
  | .hbm, ⟨23, _⟩ => ⟨S800000, .i32⟩
  | .hbm, ⟨24, _⟩ => ⟨S800000, .i1⟩
  | .hbm, ⟨25, _⟩ => ⟨S_, .i32⟩
  | .hbm, ⟨26, _⟩ => ⟨S800000, .i32⟩
  | .hbm, ⟨27, _⟩ => ⟨S800000, .i32⟩
  | .hbm, ⟨28, _⟩ => ⟨S800000, .i32⟩
  | .hbm, ⟨29, _⟩ => ⟨S800000x1, .i32⟩
  | .hbm, ⟨30, _⟩ => ⟨S800000x64, .f32⟩
  | .hbm, ⟨31, _⟩ => ⟨S800000x144, .f32⟩
  | .hbm, ⟨32, _⟩ => ⟨S800000x128, .f32⟩
  | .hbm, ⟨33, _⟩ => ⟨S1x128, .f32⟩
  | .hbm, ⟨34, _⟩ => ⟨S800000x128, .f32⟩
  | .hbm, ⟨35, _⟩ => ⟨S800000x128, .f32⟩
  | .hbm, ⟨36, _⟩ => ⟨S_, .f32⟩
  | .hbm, ⟨37, _⟩ => ⟨S800000x128, .f32⟩
  | .hbm, ⟨38, _⟩ => ⟨S800000x128, .f32⟩
  | .hbm, ⟨39, _⟩ => ⟨S_, .f32⟩
  | .hbm, ⟨40, _⟩ => ⟨S50000x128, .f32⟩
  | .hbm, ⟨41, _⟩ => ⟨S800000x1, .i32⟩
  | .hbm, ⟨42, _⟩ => ⟨S50000x128, .f32⟩
  | .hbm, ⟨43, _⟩ => ⟨S50000x192, .f32⟩
  | .hbm, ⟨44, _⟩ => ⟨S50000x128, .f32⟩
  | .hbm, ⟨45, _⟩ => ⟨S1x128, .f32⟩
  | .hbm, ⟨46, _⟩ => ⟨S50000x128, .f32⟩
  | .hbm, ⟨47, _⟩ => ⟨S50000x128, .f32⟩
  | .hbm, ⟨48, _⟩ => ⟨S_, .f32⟩
  | .hbm, ⟨49, _⟩ => ⟨S50000x128, .f32⟩
  | .hbm, ⟨50, _⟩ => ⟨S50000x128, .f32⟩
  | .hbm, ⟨51, _⟩ => ⟨S50000x64, .f32⟩
  | .hbm, ⟨52, _⟩ => ⟨S1x64, .f32⟩
  | .hbm, ⟨53, _⟩ => ⟨S50000x64, .f32⟩
  | .hbm, ⟨54, _⟩ => ⟨S50000x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_call0_cst : Ref sig .tc := ⟨.hbm, 36, rfl⟩
abbrev main_call0_v0 : Ref sig .tc := ⟨.hbm, 37, rfl⟩
abbrev main_v23 : Ref sig .tc := ⟨.hbm, 38, rfl⟩
abbrev main_cst : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call1_cst : Ref sig .tc := ⟨.hbm, 48, rfl⟩
abbrev main_call1_v0 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  concatenates_S800000x64_S800000x64_S800000x16_S800000x144_d1 : Shape.Concatenates [S800000x64, S800000x64, S800000x16] S800000x144 1
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  concatenates_S50000x64_S50000x128_S50000x192_d1 : Shape.Concatenates [S50000x64, S50000x128] S50000x192 1
  bcast_S1x128_S50000x128_0_1 : S1x128.BroadcastsInDim S50000x128 (![0, 1] : Fin 2 → Fin S50000x128.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x64_S800000x1_S800000x64_1_0_n_n_0_1_164_wf : GatherDims.WF S50000x64 S800000x1 S800000x64 [1] [0] [] [0] [] 1 ![1, 64]
  dot_S800000x144_S144x128_S800000x128_1_0_0_1_n_n_wf : DotDims.WF S800000x144 S144x128 S800000x128 [1] [0] [0] [1] [] []
  scatter_S50000x128_S800000x1_S800000x128_1_0_0_1_wf : ScatterDims.WF S50000x128 S800000x1 S800000x128 [1] [0] [0] 1
  dot_S50000x192_S192x128_S50000x128_1_0_0_1_n_n_wf : DotDims.WF S50000x192 S192x128 S50000x128 [1] [0] [0] [1] [] []
  dot_S50000x128_S128x64_S50000x64_1_0_0_1_n_n_wf : DotDims.WF S50000x128 S128x64 S50000x64 [1] [0] [0] [1] [] []

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def dot_S800000x144_S144x128_S800000x128_1_0_0_1_n_n : DotDims S800000x144 S144x128 S800000x128 where
  lhsContracting := [1]
  rhsContracting := [0]
  lhsNonContracting := [0]
  rhsNonContracting := [1]
  lhsBatch := []
  rhsBatch := []
  wf := dot_S800000x144_S144x128_S800000x128_1_0_0_1_n_n_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x192_S192x128_S50000x128_1_0_0_1_n_n : DotDims S50000x192 S192x128 S50000x128 where
  lhsContracting := [1]
  rhsContracting := [0]
  lhsNonContracting := [0]
  rhsNonContracting := [1]
  lhsBatch := []
  rhsBatch := []
  wf := dot_S50000x192_S192x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelResults.lean ====
/-
  The idealized kernel program's run with its two RESULT arrays named.

  @main is four segments: the host operations before the edge kernel, the edge kernel's pipelined region, the host
  operations between the two kernels, the node kernel's region. The generated frame certificate runs them and keeps,
  at the end, every unscoped buffer at the last boundary's contents (`Gen.W4`); it then reads the nine argument
  arrays back. Here the same launch is read at the two result buffers as well: the node output `main_v36` and the edge
  features `main_v26` end holding `Gen.W4` at those buffers.
-/
import proofs.«122805_j146028888089_2_alg».proof.Proof.Gen.KernelIdeal.Frame

set_option maxRecDepth 16384

noncomputable section

namespace Cert.KernelIdeal.Results

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the two result buffers at the last
    boundary's contents and the argument arrays as launched. -/
theorem run : θ_run defs (onTc (τ := τ) (main (F := F))) ⟨m, fun _ => 0, ρ⟩ (fun r => ∀ c : Dev nD,
      r.2.mem ((c.tc : Thread nD τ).loc main_v36) = W4 m ρ c (Proc.devRef .tc main_v36)
      ∧ r.2.mem ((c.tc : Thread nD τ).loc main_v26) = W4 m ρ c (Proc.devRef .tc main_v26)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v36 (by decide)),
       h c _ (mem_uc main_v26 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c)⟩)

end Cert.KernelIdeal.Results

end
-- ==== Proof.LibAffineLayer.lean ====
/-
  General lemmas for an affine layer `x ↦ x · W + b` written two ways: as ONE product over a concatenated
  operand, and as a SUM of products over the concatenation's pieces against the matching row blocks of `W`.

  * `sum_split2`, `sum_split3`: a finite sum over `Fin n` is the sum of its sums over two (three) consecutive
    ranges — in any commutative monoid, so it holds on the extended reals with no finiteness asked.
  * `plain_sum`: the contraction sum of a plain `[M,K] × [K,N]` product (one contracted axis, no batch axis),
    read at the output index `(p, q)`, is `∑ k, l (p, k) · r (k, q)`.
  * `matmul_zero_ix2` / `dotGeneral_ix2`: a matrix product into a zero accumulator, and the host's product, at the
    ideal values are that sum.
  * `concat2_left/right`, `concat3_fst/snd/thd`: a concatenation of two (three) matrices along the columns read at
    `(p, k)` with `k` in the first, second, third range of columns.
  * `row_bias_apply`: a vector cast to one row and broadcast over many rows reads, at `(p, q)`, the vector at `q`.
  * `rowBlock`, `slice_rows_eq`: rows `o … o + r - 1` of a matrix, and a slice along the rows as that block.
-/
import Idealize.ShloMosaic.Lib.ValueIdx
import Idealize.ShloMosaic.Lib.ValueLayout
import Idealize.ShloMosaic.Lib.Pipeline.Value
import Idealize.ShloMosaic.PureOps.Ideal.Laws

noncomputable section

namespace Cert.Lib.AffineLayer

open Idealize.ShloMosaic Idealize.ShloMosaic.ValueIdx

/-! ## Sums over consecutive ranges -/

/-- A sum over `Fin n` with `n = a + b` is the sum over the first `a` positions plus the sum over the next `b`. -/
theorem sum_split2 {M : Type*} [AddCommMonoid M] (a b n : ℕ) (h : a + b = n) (f : Fin n → M) :
    ∑ k : Fin n, f k = ∑ k : Fin a, f ⟨k.val, by omega⟩ + ∑ k : Fin b, f ⟨a + k.val, by omega⟩ := by
  subst h
  rw [Fin.sum_univ_add]
  rfl

/-- A sum over `Fin n` with `n = a + b + c` is the sum of its sums over the three consecutive ranges. -/
theorem sum_split3 {M : Type*} [AddCommMonoid M] (a b c n : ℕ) (h : a + b + c = n) (f : Fin n → M) :
    ∑ k : Fin n, f k
      = (∑ k : Fin a, f ⟨k.val, by omega⟩ + ∑ k : Fin b, f ⟨a + k.val, by omega⟩) + ∑ k : Fin c, f ⟨a + b + k.val, by omega⟩ := by
  subst h
  rw [Fin.sum_univ_add, Fin.sum_univ_add]
  rfl

/-! ## A plain matrix product read at an index -/

/-- The contraction sum of a plain `[M,K] × [K,N]` product at the output index `(p, q)`: the left operand's row `p`
    against the right operand's column `q`. -/
theorem plain_sum {M K N : ℕ} (l : (⟨2, ![M, K]⟩ : Shape).Idx → EReal) (r : (⟨2, ![K, N]⟩ : Shape).Idx → EReal)
    (p : Fin M) (q : Fin N) :
    ∑ k : (DotDims.plain M K N).contr.Idx,
        l ((DotDims.plain M K N).lhsIdx (ix2 p q) k) * r ((DotDims.plain M K N).rhsIdx (ix2 p q) k)
      = ∑ k : Fin K, l (ix2 p k) * r (ix2 k q) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p q) ((contrEquiv1 (DotDims.plain M K N) K rfl rfl).symm k) = ix2 p k :=
    funext fun a => Fin.ext (by
      match a with
      | ⟨0, _⟩ => rfl
      | ⟨1, _⟩ => exact ((DotDims.plain M K N).lhsIdx_val_of_single rfl _ _).trans hk)
  have er : (DotDims.plain M K N).rhsIdx (ix2 p q) ((contrEquiv1 (DotDims.plain M K N) K rfl rfl).symm k) = ix2 k q :=
    funext fun a => Fin.ext (by
      match a with
      | ⟨0, _⟩ => exact ((DotDims.plain M K N).rhsIdx_val_of_single rfl _ _).trans hk
      | ⟨1, _⟩ => rfl)
  rw [el, er]

/-- A kernel's matrix product into the zero accumulator, at the ideal values, read at `(p, q)`. -/
theorem matmul_zero_ix2 {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    matmul D prec a b (constant (F := Ideal) ⟨2, ![M, N]⟩ .f32 0x00000000#32) (ix2 p q)
      = ∑ k : Fin K, a (ix2 p k) * b (ix2 k q) := by
  subst hD
  exact (Ideal.matmul_constant_zero_apply _ prec a b (ix2 p q)).trans (plain_sum a b p q)

/-- The host's matrix product, at the ideal values, read at `(p, q)`. -/
theorem dotGeneral_ix2 {M K N : ℕ} {φ₁ φ₂ : FTy} (D : DotDims ⟨2, ![M, K]⟩ ⟨2, ![K, N]⟩ ⟨2, ![M, N]⟩)
    (hD : D = DotDims.plain M K N) (prec : Option ContractPrecision)
    (a : FVec Ideal ⟨2, ![M, K]⟩ φ₁) (b : FVec Ideal ⟨2, ![K, N]⟩ φ₂) (p : Fin M) (q : Fin N) :
    Host.dotGeneral D prec a b (ix2 p q) = ∑ k : Fin K, a (ix2 p k) * b (ix2 k q) := by
  subst hD
  exact (Ideal.dotGeneral_apply _ prec .single a b (ix2 p q)).trans (plain_sum a b p q)

/-! ## A concatenation along the columns read at an index -/

section Concat
variable {α : Type}

/-- Two matrices joined along the columns, read in the first one's columns. -/
theorem concat2_left {R a b n : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, n]⟩ 1) (p : Fin R) (k : Fin a) (k' : Fin n)
    (hk : k'.val = k.val) :
    concatenate ⟨2, ![R, n]⟩ 1 [⟨⟨2, ![R, a]⟩, x₁⟩, ⟨⟨2, ![R, b]⟩, x₂⟩] h (ix2 p k') = x₁ (ix2 p k) :=
  concatenate_apply_piece 1 [⟨⟨2, ![R, a]⟩, x₁⟩, ⟨⟨2, ![R, b]⟩, x₂⟩] h (ix2 p k') 0 (Nat.zero_lt_succ _) _ x₁ rfl rfl 0 rfl (ix2 p k)
    (fun b hb => by
      match b with
      | ⟨0, _⟩ => rfl
      | ⟨1, _⟩ => exact absurd rfl hb)
    (by show 0 + k.val = k'.val; omega)

/-- Two matrices joined along the columns, read in the second one's columns. -/
theorem concat2_right {R a b n : ℕ} (x₁ : (⟨2, ![R, a]⟩ : Shape).Idx → α) (x₂ : (⟨2, ![R, b]⟩ : Shape).Idx → α)
    (h : Shape.Concatenates [⟨2, ![R, a]⟩, ⟨2, ![R, b]⟩] ⟨2, ![R, n]⟩ 1) (p : Fin R) (k : Fin b) (k' : Fin n)
    (hk : k'.val = a + k.val) :
    concatenate ⟨2, ![R, n]⟩ 1 [⟨⟨2, ![R, a]⟩, x₁⟩, ⟨⟨2, ![R, b]⟩, x₂⟩] h (ix2 p k') = x₂ (ix2 p k) :=
  concatenate_apply_piece 1 [⟨⟨2, ![R, a]⟩, x₁⟩, ⟨⟨2, ![R, b]⟩, x₂⟩] h (ix2 p k') 1 (Nat.succ_lt_succ (Nat.zero_lt_succ _)) _ x₂ rfl rfl a (by simp) (ix2 p k)
    (fun b hb => by
      match b with
      | ⟨0, _⟩ => rfl
      | ⟨1, _⟩ => exact absurd rfl hb)
    (by show a + k.val = k'.val; omega)

/-- Three matrices joined along the columns, read in the first one's columns. -/
theorem concat3_fst {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin a) (k' : Fin n)
    (hk : k'.val = k.val) :
    concatenate ⟨2, ![R, n]⟩ 1 [⟨⟨2, ![R, a]⟩, x₁⟩, ⟨⟨2, ![R, b]⟩, x₂⟩, ⟨⟨2, ![R, c]⟩, x₃⟩] h (ix2 p k') = x₁ (ix2 p k) :=
  concatenate_apply_piece 1 [⟨⟨2, ![R, a]⟩, x₁⟩, ⟨⟨2, ![R, b]⟩, x₂⟩, ⟨⟨2, ![R, c]⟩, x₃⟩] h (ix2 p k') 0 (Nat.zero_lt_succ _) _ x₁ rfl rfl 0 rfl (ix2 p k)
    (fun b hb => by
      match b with
      | ⟨0, _⟩ => rfl
      | ⟨1, _⟩ => exact absurd rfl hb)
    (by show 0 + k.val = k'.val; omega)

/-- Three matrices joined along the columns, read in the second one's columns. -/
theorem concat3_snd {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin b) (k' : Fin n)
    (hk : k'.val = a + k.val) :
    concatenate ⟨2, ![R, n]⟩ 1 [⟨⟨2, ![R, a]⟩, x₁⟩, ⟨⟨2, ![R, b]⟩, x₂⟩, ⟨⟨2, ![R, c]⟩, x₃⟩] h (ix2 p k') = x₂ (ix2 p k) :=
  concatenate_apply_piece 1 [⟨⟨2, ![R, a]⟩, x₁⟩, ⟨⟨2, ![R, b]⟩, x₂⟩, ⟨⟨2, ![R, c]⟩, x₃⟩] h (ix2 p k') 1 (Nat.succ_lt_succ (Nat.zero_lt_succ _)) _ x₂ rfl rfl a (by simp) (ix2 p k)
    (fun b hb => by
      match b with
      | ⟨0, _⟩ => rfl
      | ⟨1, _⟩ => exact absurd rfl hb)
    (by show a + k.val = k'.val; omega)

/-- Three matrices joined along the columns, read in the third one's columns. -/
theorem concat3_thd {R a b c n : ℕ} (x₁ : (⟨2, ![R, a]⟩ : Shape).Idx → α) (x₂ : (⟨2, ![R, b]⟩ : Shape).Idx → α)
    (x₃ : (⟨2, ![R, c]⟩ : Shape).Idx → α)
    (h : Shape.Concatenates [⟨2, ![R, a]⟩, ⟨2, ![R, b]⟩, ⟨2, ![R, c]⟩] ⟨2, ![R, n]⟩ 1) (p : Fin R) (k : Fin c) (k' : Fin n)
    (hk : k'.val = a + b + k.val) :
    concatenate ⟨2, ![R, n]⟩ 1 [⟨⟨2, ![R, a]⟩, x₁⟩, ⟨⟨2, ![R, b]⟩, x₂⟩, ⟨⟨2, ![R, c]⟩, x₃⟩] h (ix2 p k') = x₃ (ix2 p k) :=
  concatenate_apply_piece 1 [⟨⟨2, ![R, a]⟩, x₁⟩, ⟨⟨2, ![R, b]⟩, x₂⟩, ⟨⟨2, ![R, c]⟩, x₃⟩] h (ix2 p k') 2 (Nat.succ_lt_succ (Nat.succ_lt_succ (Nat.zero_lt_succ _))) _ x₃ rfl rfl (a + b) (by simp) (ix2 p k)
    (fun b hb => by
      match b with
      | ⟨0, _⟩ => rfl
      | ⟨1, _⟩ => exact absurd rfl hb)
    (by show a + b + k.val = k'.val; omega)

/-- A vector cast to one row and broadcast over `a` rows reads, at `(p, q)`, the vector at `q`. -/
theorem row_bias_apply {a b : ℕ} (v : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ v h₁) h₂ (ix2 p q) = v (ix1 q) :=
  (broadcastTo_1b_ab_apply _ h₂ p q).trans (shapeCast_a_1a_apply v h₁ 0 q)

/-- Rows `o … o + r - 1` of a matrix with `n` rows. -/
def rowBlock {n c : ℕ} (o r : ℕ) (h : o + r ≤ n) (W : (⟨2, ![n, c]⟩ : Shape).Idx → α) : (⟨2, ![r, c]⟩ : Shape).Idx → α :=
  fun j => W (ix2 ⟨o + (j 0).val, by have := idx2_lt0 j; omega⟩ (j 1))

theorem rowBlock_ix2 {n c : ℕ} (o r : ℕ) (h : o + r ≤ n) (W : (⟨2, ![n, c]⟩ : Shape).Idx → α) (p : Fin r) (q : Fin c) :
    rowBlock o r h W (ix2 p q) = W (ix2 ⟨o + p.val, by omega⟩ q) := rfl

/-- A slice of a matrix along its rows from row `o` is that block of rows. -/
theorem slice_rows_eq {n c r : ℕ} (o : ℕ) (h : o + r ≤ n) (W : (⟨2, ![n, c]⟩ : Shape).Idx → α)
    (hs : (⟨2, ![n, c]⟩ : Shape).Slices ![o, 0] ⟨2, ![r, c]⟩) :
    extractStridedSlice ⟨2, ![r, c]⟩ ![o, 0] W hs = rowBlock o r h W := by
  funext j
  obtain ⟨p, q, rfl⟩ : ∃ (p : Fin r) (q : Fin c), j = ix2 p q := ⟨j 0, j 1, eq_ix2 j⟩
  exact slice2_axis0_apply o W hs p q ⟨o + p.val, by omega⟩ rfl

end Concat

end Cert.Lib.AffineLayer

end
-- ==== Proof.Spec.lean ====
/-
  The message-passing layer as plain formulas on the extended reals, entry by entry.

  For an edge `e` with gathered source and target node rows `src e`, `tgt e` (64 features each) and edge
  attributes `ea e` (16 features), the edge features are
      edgeAt e q = max (Σₖ src(e,k)·Ws(k,q) + Σₖ tgt(e,k)·Wt(k,q) + Σₖ ea(e,k)·Wa(k,q) + bₑ(q), 0),
  where `Ws`, `Wt`, `Wa` are the three row blocks of the edge weight matrix. For a node `n` with features `nf n`
  and aggregated edge features `agg n` (128 entries), the hidden layer and the output are
      hiddenAt n q = max (Σₖ nf(n,k)·Wn(k,q) + Σₖ agg(n,k)·Wg(k,q) + b₁(q), 0),
      nodeAt n q   = Σₖ hiddenAt(n,k)·W₂(k,q) + b₂(q).
  The row count `R` is a parameter: the same formula is read on a whole array and on a block of its rows, and
  `edgeAt_congr`, `nodeAt_congr` say that an entry depends only on its own row of the row-indexed operands.
-/
import Idealize.ShloMosaic.PureOps.Ideal
import Idealize.ShloMosaic.Lib.ValueIdx

noncomputable section

namespace Cert.Mp

open Idealize.ShloMosaic Idealize.ShloMosaic.ValueIdx

/-- One entry of the edge layer. -/
def edgeAt {R : ℕ} (src tgt : (⟨2, ![R, 64]⟩ : Shape).Idx → EReal) (ea : (⟨2, ![R, 16]⟩ : Shape).Idx → EReal)
    (Ws Wt : (⟨2, ![64, 128]⟩ : Shape).Idx → EReal) (Wa : (⟨2, ![16, 128]⟩ : Shape).Idx → EReal)
    (be : (⟨1, ![128]⟩ : Shape).Idx → EReal) (p : Fin R) (q : Fin 128) : EReal :=
  max ((((∑ k : Fin 64, src (ix2 p k) * Ws (ix2 k q)) + ∑ k : Fin 64, tgt (ix2 p k) * Wt (ix2 k q))
      + ∑ k : Fin 16, ea (ix2 p k) * Wa (ix2 k q)) + be (ix1 q)) (Ideal.ofBits .f32 0x00000000#32)

/-- The edge layer's output array. -/
def edgeFeat {R : ℕ} (src tgt : (⟨2, ![R, 64]⟩ : Shape).Idx → EReal) (ea : (⟨2, ![R, 16]⟩ : Shape).Idx → EReal)
    (Ws Wt : (⟨2, ![64, 128]⟩ : Shape).Idx → EReal) (Wa : (⟨2, ![16, 128]⟩ : Shape).Idx → EReal)
    (be : (⟨1, ![128]⟩ : Shape).Idx → EReal) : (⟨2, ![R, 128]⟩ : Shape).Idx → EReal :=
  fun j => edgeAt src tgt ea Ws Wt Wa be (j 0) (j 1)

/-- An entry of the edge layer depends only on its own row of the gathered rows and attributes. -/
theorem edgeAt_congr {R R' : ℕ} (src tgt : (⟨2, ![R, 64]⟩ : Shape).Idx → EReal) (ea : (⟨2, ![R, 16]⟩ : Shape).Idx → EReal)
    (src' tgt' : (⟨2, ![R', 64]⟩ : Shape).Idx → EReal) (ea' : (⟨2, ![R', 16]⟩ : Shape).Idx → EReal)
    (Ws Wt : (⟨2, ![64, 128]⟩ : Shape).Idx → EReal) (Wa : (⟨2, ![16, 128]⟩ : Shape).Idx → EReal)
    (be : (⟨1, ![128]⟩ : Shape).Idx → EReal) (p : Fin R) (p' : Fin R') (q : Fin 128)
    (hs : ∀ k, src (ix2 p k) = src' (ix2 p' k)) (ht : ∀ k, tgt (ix2 p k) = tgt' (ix2 p' k))
    (ha : ∀ k, ea (ix2 p k) = ea' (ix2 p' k)) :
    edgeAt src tgt ea Ws Wt Wa be p q = edgeAt src' tgt' ea' Ws Wt Wa be p' q := by
  unfold edgeAt
  simp only [hs, ht, ha]

/-- One entry of the node layer's hidden activations. -/
def hiddenAt {R : ℕ} (nf : (⟨2, ![R, 64]⟩ : Shape).Idx → EReal) (agg : (⟨2, ![R, 128]⟩ : Shape).Idx → EReal)
    (Wn : (⟨2, ![64, 128]⟩ : Shape).Idx → EReal) (Wg : (⟨2, ![128, 128]⟩ : Shape).Idx → EReal)
    (b1 : (⟨1, ![128]⟩ : Shape).Idx → EReal) (p : Fin R) (q : Fin 128) : EReal :=
  max (((∑ k : Fin 64, nf (ix2 p k) * Wn (ix2 k q)) + ∑ k : Fin 128, agg (ix2 p k) * Wg (ix2 k q)) + b1 (ix1 q))
    (Ideal.ofBits .f32 0x00000000#32)

/-- One entry of the node layer's output. -/
def nodeAt {R : ℕ} (nf : (⟨2, ![R, 64]⟩ : Shape).Idx → EReal) (agg : (⟨2, ![R, 128]⟩ : Shape).Idx → EReal)
    (Wn : (⟨2, ![64, 128]⟩ : Shape).Idx → EReal) (Wg : (⟨2, ![128, 128]⟩ : Shape).Idx → EReal)
    (b1 : (⟨1, ![128]⟩ : Shape).Idx → EReal) (W2 : (⟨2, ![128, 64]⟩ : Shape).Idx → EReal)
    (b2 : (⟨1, ![64]⟩ : Shape).Idx → EReal) (p : Fin R) (q : Fin 64) : EReal :=
  (∑ k : Fin 128, hiddenAt nf agg Wn Wg b1 p k * W2 (ix2 k q)) + b2 (ix1 q)

/-- The node layer's output array. -/
def nodeOut {R : ℕ} (nf : (⟨2, ![R, 64]⟩ : Shape).Idx → EReal) (agg : (⟨2, ![R, 128]⟩ : Shape).Idx → EReal)
    (Wn : (⟨2, ![64, 128]⟩ : Shape).Idx → EReal) (Wg : (⟨2, ![128, 128]⟩ : Shape).Idx → EReal)
    (b1 : (⟨1, ![128]⟩ : Shape).Idx → EReal) (W2 : (⟨2, ![128, 64]⟩ : Shape).Idx → EReal)
    (b2 : (⟨1, ![64]⟩ : Shape).Idx → EReal) : (⟨2, ![R, 64]⟩ : Shape).Idx → EReal :=
  fun j => nodeAt nf agg Wn Wg b1 W2 b2 (j 0) (j 1)

/-- An entry of the node layer depends only on its own row of the node features and of the aggregate. -/
theorem nodeAt_congr {R R' : ℕ} (nf : (⟨2, ![R, 64]⟩ : Shape).Idx → EReal) (agg : (⟨2, ![R, 128]⟩ : Shape).Idx → EReal)
    (nf' : (⟨2, ![R', 64]⟩ : Shape).Idx → EReal) (agg' : (⟨2, ![R', 128]⟩ : Shape).Idx → EReal)
    (Wn : (⟨2, ![64, 128]⟩ : Shape).Idx → EReal) (Wg : (⟨2, ![128, 128]⟩ : Shape).Idx → EReal)
    (b1 : (⟨1, ![128]⟩ : Shape).Idx → EReal) (W2 : (⟨2, ![128, 64]⟩ : Shape).Idx → EReal)
    (b2 : (⟨1, ![64]⟩ : Shape).Idx → EReal) (p : Fin R) (p' : Fin R') (q : Fin 64)
    (hn : ∀ k, nf (ix2 p k) = nf' (ix2 p' k)) (hg : ∀ k, agg (ix2 p k) = agg' (ix2 p' k)) :
    nodeAt nf agg Wn Wg b1 W2 b2 p q = nodeAt nf' agg' Wn Wg b1 W2 b2 p' q := by
  unfold nodeAt hiddenAt
  simp only [hn, hg]

end Cert.Mp

end
-- ==== Proof.KernelPayloads.lean ====
/-
  What the two kernel bodies store, entry by entry, at the ideal values.

  The edge kernel multiplies its block of gathered source rows, its block of gathered target rows and its block of
  edge attributes by the three row blocks of the edge weights, each product into a zero accumulator, adds the three
  products and the bias row, and rectifies: at `(p, q)` that is `Mp.edgeAt` of the blocks. The node kernel does the same
  with the node-feature block and the aggregate block against the two row blocks of the first node weights, rectifies,
  and multiplies the hidden block by the second weights, adding the second bias: `Mp.nodeAt` of the blocks. A change of
  float format is the identity at the ideal values, so the rounding of the hidden block to bf16 drops out.
-/
import proofs.«122805_j146028888089_2_alg».proof.Proof.Gen.KernelIdeal.Skeleton
import proofs.«122805_j146028888089_2_alg».proof.Proof.LibAffineLayer
import proofs.«122805_j146028888089_2_alg».proof.Proof.Spec

noncomputable section

namespace Cert.KernelIdeal.Payloads

open Cert.KernelIdeal Cert.KernelIdeal.Gen
open Idealize.ShloMosaic Idealize.ShloMosaic.ValueIdx Cert.Lib.AffineLayer

/-- THE EDGE KERNEL's stored value at `(p, q)` of its block. -/
theorem edge_pay_at (x0 x1 : FVec Ideal S10000x64 .bf16) (x2 : FVec Ideal S10000x16 .bf16)
    (x3 x4 : FVec Ideal S64x128 .bf16) (x5 : FVec Ideal S16x128 .bf16) (x6 : FVec Ideal S128 .f32)
    (p : Fin 10000) (q : Fin 128) :
    k0_pay1 (F := Ideal) x0 x1 x2 x3 x4 x5 x6 (ix2 p q) = Cert.Mp.edgeAt (R := 10000) x0 x1 x2 x3 x4 x5 x6 p q := by
  unfold k0_pay1
  simp only [shapeCast_self]
  show max ((((matmul dot_S10000x64_S64x128_S10000x128_1_0_0_1_n_n none x0 x3 (constant (F := Ideal) S10000x128 .f32 0x00000000#32) (ix2 p q)
      + matmul dot_S10000x64_S64x128_S10000x128_1_0_0_1_n_n none x1 x4 (constant (F := Ideal) S10000x128 .f32 0x00000000#32) (ix2 p q))
      + matmul dot_S10000x16_S16x128_S10000x128_1_0_0_1_n_n none x2 x5 (constant (F := Ideal) S10000x128 .f32 0x00000000#32) (ix2 p q))
      + broadcastTo S10000x128 (shapeCast S1x128 x6 shapeCasts_S128_S1x128) broadcasts_S1x128_S10000x128 (ix2 p q)))
      (Ideal.ofBits .f32 0x00000000#32) = _
  rw [matmul_zero_ix2 (M := 10000) (K := 64) (N := 128) dot_S10000x64_S64x128_S10000x128_1_0_0_1_n_n rfl,
    matmul_zero_ix2 (M := 10000) (K := 64) (N := 128) dot_S10000x64_S64x128_S10000x128_1_0_0_1_n_n rfl,
    matmul_zero_ix2 (M := 10000) (K := 16) (N := 128) dot_S10000x16_S16x128_S10000x128_1_0_0_1_n_n rfl,
    row_bias_apply (a := 10000) (b := 128)]
  rfl

/-- The node kernel's hidden block at `(p, q)`: the rectified first layer. -/
theorem hidden_pay_at (x0 : FVec Ideal S10000x64 .bf16) (x1 : FVec Ideal S10000x128 .bf16)
    (x2 : FVec Ideal S64x128 .bf16) (x3 : FVec Ideal S128x128 .bf16) (x4 : FVec Ideal S128 .f32)
    (p : Fin 10000) (q : Fin 128) :
    maximumf (addf (addf (matmul dot_S10000x64_S64x128_S10000x128_1_0_0_1_n_n none x0 x2 (constant (F := Ideal) S10000x128 .f32 0x00000000#32))
        (matmul dot_S10000x128_S128x128_S10000x128_1_0_0_1_n_n none x1 x3 (constant (F := Ideal) S10000x128 .f32 0x00000000#32)))
        (broadcastTo S10000x128 (shapeCast S1x128 x4 shapeCasts_S128_S1x128) broadcasts_S1x128_S10000x128))
      (broadcast (α := Ideal .f32) S10000x128 (Scalar.ofBits (F := Ideal) .f32 0x00000000#32)) (ix2 p q)
      = Cert.Mp.hiddenAt (R := 10000) x0 x1 x2 x3 x4 p q := by
  show max (((matmul dot_S10000x64_S64x128_S10000x128_1_0_0_1_n_n none x0 x2 (constant (F := Ideal) S10000x128 .f32 0x00000000#32) (ix2 p q)
      + matmul dot_S10000x128_S128x128_S10000x128_1_0_0_1_n_n none x1 x3 (constant (F := Ideal) S10000x128 .f32 0x00000000#32) (ix2 p q))
      + broadcastTo S10000x128 (shapeCast S1x128 x4 shapeCasts_S128_S1x128) broadcasts_S1x128_S10000x128 (ix2 p q)))
      (Ideal.ofBits .f32 0x00000000#32) = _
  rw [matmul_zero_ix2 (M := 10000) (K := 64) (N := 128) dot_S10000x64_S64x128_S10000x128_1_0_0_1_n_n rfl,
    matmul_zero_ix2 (M := 10000) (K := 128) (N := 128) dot_S10000x128_S128x128_S10000x128_1_0_0_1_n_n rfl,
    row_bias_apply (a := 10000) (b := 128)]
  rfl

/-- THE NODE KERNEL's stored value at `(p, q)` of its block. -/
theorem node_pay_at (x0 : FVec Ideal S10000x64 .bf16) (x1 : FVec Ideal S10000x128 .bf16)
    (x2 : FVec Ideal S64x128 .bf16) (x3 : FVec Ideal S128x128 .bf16) (x4 : FVec Ideal S128 .f32)
    (x5 : FVec Ideal S128x64 .bf16) (x6 : FVec Ideal S64 .f32) (p : Fin 10000) (q : Fin 64) :
    k1_pay1 (F := Ideal) x0 x1 x2 x3 x4 x5 x6 (ix2 p q) = Cert.Mp.nodeAt (R := 10000) x0 x1 x2 x3 x4 x5 x6 p q := by
  unfold k1_pay1
  simp only [shapeCast_self]
  show matmul dot_S10000x128_S128x64_S10000x64_1_0_0_1_n_n none
        (truncf .bf16 (maximumf (addf (addf (matmul dot_S10000x64_S64x128_S10000x128_1_0_0_1_n_n none x0 x2 (constant (F := Ideal) S10000x128 .f32 0x00000000#32))
          (matmul dot_S10000x128_S128x128_S10000x128_1_0_0_1_n_n none x1 x3 (constant (F := Ideal) S10000x128 .f32 0x00000000#32)))
          (broadcastTo S10000x128 (shapeCast S1x128 x4 shapeCasts_S128_S1x128) broadcasts_S1x128_S10000x128))
          (broadcast (α := Ideal .f32) S10000x128 (Scalar.ofBits (F := Ideal) .f32 0x00000000#32))) bitsLt_bf16_f32)
        x5 (constant (F := Ideal) S10000x64 .f32 0x00000000#32) (ix2 p q)
      + broadcastTo S10000x64 (shapeCast S1x64 x6 shapeCasts_S64_S1x64) broadcasts_S1x64_S10000x64 (ix2 p q) = _
  rw [matmul_zero_ix2 (M := 10000) (K := 128) (N := 64) dot_S10000x128_S128x64_S10000x64_1_0_0_1_n_n rfl,
    row_bias_apply (a := 10000) (b := 64)]
  unfold Cert.Mp.nodeAt
  refine congrArg (· + x6 (ix1 q)) (Finset.sum_congr rfl fun k _ => ?_)
  exact congrArg (· * x5 (ix2 k q)) (hidden_pay_at x0 x1 x2 x3 x4 p k)

end Cert.KernelIdeal.Payloads

end
-- ==== Proof.EdgeRegion.lean ====
/-
  The edge kernel's region: what its output array holds when the region is left, as ONE function of the arrays the
  region finds when it is entered (`V`, a parameter here).

  The grid has 80 points; point `t` is handed rows `10000·t … 10000·t + 9999` of the gathered source rows, the gathered
  target rows and the edge attributes, and the whole of the three weight blocks and of the bias; it writes back rows
  `10000·t … 10000·t + 9999` of the output. What it writes is the edge layer (`Mp.edgeAt`) of its blocks, and an entry of
  the edge layer depends only on its own row, so the write-back is block `t` of the edge layer of the WHOLE arrays.
  The 80 blocks tile the output, hence the array ends holding that function everywhere.
-/
import proofs.«122805_j146028888089_2_alg».proof.Proof.Gen.KernelIdeal.Frame
import proofs.«122805_j146028888089_2_alg».proof.Proof.KernelPayloads
import Idealize.ShloMosaic.Lib.Pipeline.Value

set_option maxRecDepth 16384

noncomputable section

namespace Cert.KernelIdeal.EdgeRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The edge layer of the arrays the region finds: gathered source rows, gathered target rows, attributes, the three
    weight blocks, the bias. -/
abbrev edgeArr (c : Dev nD) : S800000x128.Idx → EReal :=
  Cert.Mp.edgeFeat (R := 800000) (V c main_v11) (V c main_v18) (V c main_v19) (V c main_v21) (V c main_v23) (V c main_v25)
    (V c main_arg4)

/-- The printed index maps over the 80 points: the row-blocked windows sit at block row `t`, the others at zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 1) = 0
    ∧ win0_7.index t (0 : Fin 2) = t.val ∧ win0_7.index t (1 : Fin 2) = 0 :=
  (by decide +kernel : ∀ t : Fin grid0.N, _)

theorem row_lt (t : Fin cfg0.N) (p : Fin 10000) : t.val * 10000 + p.val < 800000 := by
  have hN : cfg0.N = 80 := N_0
  have := t.isLt; have := p.isLt; omega

/-! ## The input blocks read through their windows -/

theorem src_blk_at (c : Dev nD) (t : Fin cfg0.N) (p : Fin 10000) (k : Fin 64) :
    (iblk0 V c 0 t : FVec Ideal S10000x64 .bf16) (ix2 p k)
      = (V c main_v11 : S800000x64.Idx → EReal) (ix2 ⟨t.val * 10000 + p.val, row_lt t p⟩ k) := by
  obtain ⟨e0, e1, -⟩ := idx_facts t
  show (V c main_v11 : S800000x64.Idx → EReal) (((cfg0.win 0).blk t).view.emb (ix2 p k)) = _
  refine congrArg (V c main_v11 : S800000x64.Idx → EReal) (funext fun a => Fin.ext ?_)
  match a with
  | ⟨0, _⟩ => show win0_0.index t (0 : Fin 2) * 10000 + 1 * p.val = t.val * 10000 + p.val; rw [e0]; omega
  | ⟨1, _⟩ => show win0_0.index t (1 : Fin 2) * 64 + 1 * k.val = k.val; rw [e1]; omega

theorem tgt_blk_at (c : Dev nD) (t : Fin cfg0.N) (p : Fin 10000) (k : Fin 64) :
    (iblk0 V c 1 t : FVec Ideal S10000x64 .bf16) (ix2 p k)
      = (V c main_v18 : S800000x64.Idx → EReal) (ix2 ⟨t.val * 10000 + p.val, row_lt t p⟩ k) := by
  obtain ⟨-, -, e0, e1, -⟩ := idx_facts t
  show (V c main_v18 : S800000x64.Idx → EReal) (((cfg0.win 1).blk t).view.emb (ix2 p k)) = _
  refine congrArg (V c main_v18 : S800000x64.Idx → EReal) (funext fun a => Fin.ext ?_)
  match a with
  | ⟨0, _⟩ => show win0_1.index t (0 : Fin 2) * 10000 + 1 * p.val = t.val * 10000 + p.val; rw [e0]; omega
  | ⟨1, _⟩ => show win0_1.index t (1 : Fin 2) * 64 + 1 * k.val = k.val; rw [e1]; omega

theorem ea_blk_at (c : Dev nD) (t : Fin cfg0.N) (p : Fin 10000) (k : Fin 16) :
    (iblk0 V c 2 t : FVec Ideal S10000x16 .bf16) (ix2 p k)
      = (V c main_v19 : S800000x16.Idx → EReal) (ix2 ⟨t.val * 10000 + p.val, row_lt t p⟩ k) := by
  obtain ⟨-, -, -, -, e0, e1, -⟩ := idx_facts t
  show (V c main_v19 : S800000x16.Idx → EReal) (((cfg0.win 2).blk t).view.emb (ix2 p k)) = _
  refine congrArg (V c main_v19 : S800000x16.Idx → EReal) (funext fun a => Fin.ext ?_)
  match a with
  | ⟨0, _⟩ => show win0_2.index t (0 : Fin 2) * 10000 + 1 * p.val = t.val * 10000 + p.val; rw [e0]; omega
  | ⟨1, _⟩ => show win0_2.index t (1 : Fin 2) * 16 + 1 * k.val = k.val; rw [e1]; omega

theorem ws_blk_eq (c : Dev nD) (t : Fin cfg0.N) :
    (iblk0 V c 3 t : FVec Ideal S64x128 .bf16) = (V c main_v21 : S64x128.Idx → EReal) := by
  obtain ⟨-, -, -, -, -, -, e0, e1, -⟩ := idx_facts t
  funext y
  show (V c main_v21 : S64x128.Idx → EReal) (((cfg0.win 3).blk t).view.emb y) = _
  refine congrArg (V c main_v21 : S64x128.Idx → EReal) (funext fun a => Fin.ext ?_)
  match a with
  | ⟨0, _⟩ => show win0_3.index t (0 : Fin 2) * 64 + 1 * (y 0).val = (y 0).val; rw [e0]; omega
  | ⟨1, _⟩ => show win0_3.index t (1 : Fin 2) * 128 + 1 * (y 1).val = (y 1).val; rw [e1]; omega

theorem wt_blk_eq (c : Dev nD) (t : Fin cfg0.N) :
    (iblk0 V c 4 t : FVec Ideal S64x128 .bf16) = (V c main_v23 : S64x128.Idx → EReal) := by
  obtain ⟨-, -, -, -, -, -, -, -, e0, e1, -⟩ := idx_facts t
  funext y
  show (V c main_v23 : S64x128.Idx → EReal) (((cfg0.win 4).blk t).view.emb y) = _
  refine congrArg (V c main_v23 : S64x128.Idx → EReal) (funext fun a => Fin.ext ?_)
  match a with
  | ⟨0, _⟩ => show win0_4.index t (0 : Fin 2) * 64 + 1 * (y 0).val = (y 0).val; rw [e0]; omega
  | ⟨1, _⟩ => show win0_4.index t (1 : Fin 2) * 128 + 1 * (y 1).val = (y 1).val; rw [e1]; omega

theorem wa_blk_eq (c : Dev nD) (t : Fin cfg0.N) :
    (iblk0 V c 5 t : FVec Ideal S16x128 .bf16) = (V c main_v25 : S16x128.Idx → EReal) := by
  obtain ⟨-, -, -, -, -, -, -, -, -, -, e0, e1, -⟩ := idx_facts t
  funext y
  show (V c main_v25 : S16x128.Idx → EReal) (((cfg0.win 5).blk t).view.emb y) = _
  refine congrArg (V c main_v25 : S16x128.Idx → EReal) (funext fun a => Fin.ext ?_)
  match a with
  | ⟨0, _⟩ => show win0_5.index t (0 : Fin 2) * 16 + 1 * (y 0).val = (y 0).val; rw [e0]; omega
  | ⟨1, _⟩ => show win0_5.index t (1 : Fin 2) * 128 + 1 * (y 1).val = (y 1).val; rw [e1]; omega

theorem be_blk_eq (c : Dev nD) (t : Fin cfg0.N) :
    (iblk0 V c 6 t : FVec Ideal S128 .f32) = (V c main_arg4 : S128.Idx → EReal) := by
  obtain ⟨-, -, -, -, -, -, -, -, -, -, -, -, e0, -⟩ := idx_facts t
  funext y
  show (V c main_arg4 : S128.Idx → EReal) (((cfg0.win 6).blk t).view.emb y) = _
  refine congrArg (V c main_arg4 : S128.Idx → EReal) (funext fun a => Fin.ext ?_)
  match a with
  | ⟨0, _⟩ => show win0_6.index t (0 : Fin 1) * 128 + 1 * (y 0).val = (y 0).val; rw [e0]; omega

/-- Where an entry of the output block at point `t` sits in the output array. -/
theorem out_emb (t : Fin cfg0.N) (p : Fin 10000) (q : Fin 128) :
    (((cfg0.win 7).blk t).view.emb (ix2 p q) : S800000x128.Idx) = ix2 ⟨t.val * 10000 + p.val, row_lt t p⟩ q := by
  obtain ⟨-, -, -, -, -, -, -, -, -, -, -, -, -, e0, e1⟩ := idx_facts t
  refine funext fun a => Fin.ext ?_
  match a with
  | ⟨0, _⟩ => show win0_7.index t (0 : Fin 2) * 10000 + 1 * p.val = t.val * 10000 + p.val; rw [e0]; omega
  | ⟨1, _⟩ => show win0_7.index t (1 : Fin 2) * 128 + 1 * q.val = q.val; rw [e1]; omega

/-! ## What a point writes back, the cover, the final array -/

/-- WHAT POINT `t` WRITES BACK is block `t` of the edge layer of the whole arrays. -/
theorem flushed_eq (c : Dev nD) (t : Fin cfg0.N) :
    (dat0 V c).flushed 7 t = ((cfg0.win 7).blk t).view.read (Elt Ideal) (edgeArr V c) := by
  show (cfg0.win 7).cut (grid0.coords t) ((dat0 V c).after 7 t) = _
  rw [after0_7]
  unfold out0_7
  rw [View.canon_unit_zero hz2]
  simp only [View.ld_unit_zero (S := S10000x64) hz2, View.ld_unit_zero (S := S10000x16) hz2,
    View.ld_unit_zero (S := S64x128) hz2, View.ld_unit_zero (S := S16x128) hz2, View.ld_unit_zero (S := S128) hz1]
  funext y
  obtain ⟨p, q, rfl⟩ : ∃ (p : Fin 10000) (q : Fin 128), y = ix2 p q := ⟨y 0, y 1, eq_ix2 y⟩
  show k0_pay1 (F := Ideal) (iblk0 V c 0 t) (iblk0 V c 1 t) (iblk0 V c 2 t) (iblk0 V c 3 t) (iblk0 V c 4 t) (iblk0 V c 5 t)
      (iblk0 V c 6 t) (ix2 p q) = edgeArr V c (((cfg0.win 7).blk t).view.emb (ix2 p q))
  refine (Payloads.edge_pay_at (iblk0 V c 0 t) (iblk0 V c 1 t) (iblk0 V c 2 t) (iblk0 V c 3 t) (iblk0 V c 4 t)
    (iblk0 V c 5 t) (iblk0 V c 6 t) p q).trans ?_
  rw [out_emb t p q, ws_blk_eq V c t, wt_blk_eq V c t, wa_blk_eq V c t, be_blk_eq V c t]
  exact Cert.Mp.edgeAt_congr _ _ _ _ _ _ _ _ _ _ p ⟨t.val * 10000 + p.val, row_lt t p⟩ q
    (src_blk_at V c t p) (tgt_blk_at V c t p) (ea_blk_at V c t p)

/-- An index of the output array is in point `t`'s block iff each coordinate is in the block's range on its axis. -/
theorem mem_blk (t : Fin cfg0.N) (i : S800000x128.Idx) :
    i ∈ ((cfg0.win 7).blk t).view.set ↔ ∀ a : Fin 2, win0_7.index t a * S10000x128.size a ≤ (i a).val
      ∧ (i a).val < win0_7.index t a * S10000x128.size a + S10000x128.size a := by
  show i ∈ ((View.whole main_v26).slice (win0_7.rect t)).set ↔ _
  rw [View.set_slice_whole, Rect.mem_set_unit]
  exact Iff.rfl

/-- Every index of the output array is in the block of the point that owns its row: `row / 10000`. -/
theorem cover (i : S800000x128.Idx) :
    ∃ t : Fin cfg0.N, (cfg0.win 7).flush t = true ∧ i ∈ ((cfg0.win 7).blk t).view.set := by
  have hN : cfg0.N = 80 := N_0
  have hi0 : (i 0).val < 800000 := (i 0).isLt
  have hi1 : (i 1).val < 128 := (i 1).isLt
  refine ⟨⟨(i 0).val / 10000, by rw [hN]; omega⟩, flush0_7 _, ?_⟩
  rw [mem_blk]
  obtain ⟨-, -, -, -, -, -, -, -, -, -, -, -, -, e0, e1⟩ := idx_facts ⟨(i 0).val / 10000, by rw [hN]; omega⟩
  intro a
  match a with
  | ⟨0, _⟩ =>
    show win0_7.index _ (0 : Fin 2) * 10000 ≤ (i 0).val ∧ (i 0).val < win0_7.index _ (0 : Fin 2) * 10000 + 10000
    rw [e0]; show (i 0).val / 10000 * 10000 ≤ (i 0).val ∧ (i 0).val < (i 0).val / 10000 * 10000 + 10000; omega
  | ⟨1, _⟩ =>
    show win0_7.index _ (1 : Fin 2) * 128 ≤ (i 1).val ∧ (i 1).val < win0_7.index _ (1 : Fin 2) * 128 + 128
    rw [e1]; omega

/-- THE OUTPUT ARRAY when the region is left: the edge layer of the arrays it found. -/
theorem final (c : Dev nD) : (dat0 V c).arrAt 7 cfg0.N = edgeArr V c :=
  (dat0 V c).arrAt_eq_of_cover 7 (edgeArr V c) (fun t _ => flushed_eq V c t) cover

end Cert.KernelIdeal.EdgeRegion

end
-- ==== Proof.NodeRegion.lean ====
/-
  The node kernel's region: what its output array holds when the region is left, as ONE function of the arrays the
  region finds when it is entered (`V`, a parameter here).

  The grid has 5 points; point `t` is handed rows `10000·t … 10000·t + 9999` of the node features and of the aggregate,
  and the whole of the weights and biases; it writes back the same rows of the output. What it writes is the node layer
  (`Mp.nodeAt`) of its blocks, and an entry of the node layer depends only on its own row, so the write-back is block `t`
  of the node layer of the WHOLE arrays; the 5 blocks tile the output.
-/
import proofs.«122805_j146028888089_2_alg».proof.Proof.Gen.KernelIdeal.Frame
import proofs.«122805_j146028888089_2_alg».proof.Proof.KernelPayloads
import Idealize.ShloMosaic.Lib.Pipeline.Value

set_option maxRecDepth 16384

noncomputable section

namespace Cert.KernelIdeal.NodeRegion

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl
theorem hz1 : (![0] : Fin 1 → Nat) = fun _ => 0 := funext fun a => by fin_cases a <;> rfl

/-- The node layer of the arrays the region finds: node features, aggregate, the two blocks of the first weights, the
    first bias, the second weights and bias. -/
abbrev nodeArr (c : Dev nD) : S50000x64.Idx → EReal :=
  Cert.Mp.nodeOut (R := 50000) (V c main_v4) (V c main_v35) (V c main_v31) (V c main_v33) (V c main_arg6) (V c main_v34)
    (V c main_arg8)

/-- The printed index maps over the 5 points: the row-blocked windows sit at block row `t`, the others at zero. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = t.val ∧ win1_7.index t (1 : Fin 2) = 0 :=
  (by decide +kernel : ∀ t : Fin grid1.N, _)

theorem row_lt (t : Fin cfg1.N) (p : Fin 10000) : t.val * 10000 + p.val < 50000 := by
  have hN : cfg1.N = 5 := N_1
  have := t.isLt; have := p.isLt; omega

/-! ## The input blocks read through their windows -/

theorem nf_blk_at (c : Dev nD) (t : Fin cfg1.N) (p : Fin 10000) (k : Fin 64) :
    (iblk1 V c 0 t : FVec Ideal S10000x64 .bf16) (ix2 p k)
      = (V c main_v4 : S50000x64.Idx → EReal) (ix2 ⟨t.val * 10000 + p.val, row_lt t p⟩ k) := by
  obtain ⟨e0, e1, -⟩ := idx_facts t
  show (V c main_v4 : S50000x64.Idx → EReal) (((cfg1.win 0).blk t).view.emb (ix2 p k)) = _
  refine congrArg (V c main_v4 : S50000x64.Idx → EReal) (funext fun a => Fin.ext ?_)
  match a with
  | ⟨0, _⟩ => show win1_0.index t (0 : Fin 2) * 10000 + 1 * p.val = t.val * 10000 + p.val; rw [e0]; omega
  | ⟨1, _⟩ => show win1_0.index t (1 : Fin 2) * 64 + 1 * k.val = k.val; rw [e1]; omega

theorem agg_blk_at (c : Dev nD) (t : Fin cfg1.N) (p : Fin 10000) (k : Fin 128) :
    (iblk1 V c 1 t : FVec Ideal S10000x128 .bf16) (ix2 p k)
      = (V c main_v35 : S50000x128.Idx → EReal) (ix2 ⟨t.val * 10000 + p.val, row_lt t p⟩ k) := by
  obtain ⟨-, -, e0, e1, -⟩ := idx_facts t
  show (V c main_v35 : S50000x128.Idx → EReal) (((cfg1.win 1).blk t).view.emb (ix2 p k)) = _
  refine congrArg (V c main_v35 : S50000x128.Idx → EReal) (funext fun a => Fin.ext ?_)
  match a with
  | ⟨0, _⟩ => show win1_1.index t (0 : Fin 2) * 10000 + 1 * p.val = t.val * 10000 + p.val; rw [e0]; omega
  | ⟨1, _⟩ => show win1_1.index t (1 : Fin 2) * 128 + 1 * k.val = k.val; rw [e1]; omega

theorem wn_blk_eq (c : Dev nD) (t : Fin cfg1.N) :
    (iblk1 V c 2 t : FVec Ideal S64x128 .bf16) = (V c main_v31 : S64x128.Idx → EReal) := by
  obtain ⟨-, -, -, -, e0, e1, -⟩ := idx_facts t
  funext y
  show (V c main_v31 : S64x128.Idx → EReal) (((cfg1.win 2).blk t).view.emb y) = _
  refine congrArg (V c main_v31 : S64x128.Idx → EReal) (funext fun a => Fin.ext ?_)
  match a with
  | ⟨0, _⟩ => show win1_2.index t (0 : Fin 2) * 64 + 1 * (y 0).val = (y 0).val; rw [e0]; omega
  | ⟨1, _⟩ => show win1_2.index t (1 : Fin 2) * 128 + 1 * (y 1).val = (y 1).val; rw [e1]; omega

theorem wg_blk_eq (c : Dev nD) (t : Fin cfg1.N) :
    (iblk1 V c 3 t : FVec Ideal S128x128 .bf16) = (V c main_v33 : S128x128.Idx → EReal) := by
  obtain ⟨-, -, -, -, -, -, e0, e1, -⟩ := idx_facts t
  funext y
  show (V c main_v33 : S128x128.Idx → EReal) (((cfg1.win 3).blk t).view.emb y) = _
  refine congrArg (V c main_v33 : S128x128.Idx → EReal) (funext fun a => Fin.ext ?_)
  match a with
  | ⟨0, _⟩ => show win1_3.index t (0 : Fin 2) * 128 + 1 * (y 0).val = (y 0).val; rw [e0]; omega
  | ⟨1, _⟩ => show win1_3.index t (1 : Fin 2) * 128 + 1 * (y 1).val = (y 1).val; rw [e1]; omega

theorem b1_blk_eq (c : Dev nD) (t : Fin cfg1.N) :
    (iblk1 V c 4 t : FVec Ideal S128 .f32) = (V c main_arg6 : S128.Idx → EReal) := by
  obtain ⟨-, -, -, -, -, -, -, -, e0, -⟩ := idx_facts t
  funext y
  show (V c main_arg6 : S128.Idx → EReal) (((cfg1.win 4).blk t).view.emb y) = _
  refine congrArg (V c main_arg6 : S128.Idx → EReal) (funext fun a => Fin.ext ?_)
  match a with
  | ⟨0, _⟩ => show win1_4.index t (0 : Fin 1) * 128 + 1 * (y 0).val = (y 0).val; rw [e0]; omega

theorem w2_blk_eq (c : Dev nD) (t : Fin cfg1.N) :
    (iblk1 V c 5 t : FVec Ideal S128x64 .bf16) = (V c main_v34 : S128x64.Idx → EReal) := by
  obtain ⟨-, -, -, -, -, -, -, -, -, e0, e1, -⟩ := idx_facts t
  funext y
  show (V c main_v34 : S128x64.Idx → EReal) (((cfg1.win 5).blk t).view.emb y) = _
  refine congrArg (V c main_v34 : S128x64.Idx → EReal) (funext fun a => Fin.ext ?_)
  match a with
  | ⟨0, _⟩ => show win1_5.index t (0 : Fin 2) * 128 + 1 * (y 0).val = (y 0).val; rw [e0]; omega
  | ⟨1, _⟩ => show win1_5.index t (1 : Fin 2) * 64 + 1 * (y 1).val = (y 1).val; rw [e1]; omega

theorem b2_blk_eq (c : Dev nD) (t : Fin cfg1.N) :
    (iblk1 V c 6 t : FVec Ideal S64 .f32) = (V c main_arg8 : S64.Idx → EReal) := by
  obtain ⟨-, -, -, -, -, -, -, -, -, -, -, e0, -⟩ := idx_facts t
  funext y
  show (V c main_arg8 : S64.Idx → EReal) (((cfg1.win 6).blk t).view.emb y) = _
  refine congrArg (V c main_arg8 : S64.Idx → EReal) (funext fun a => Fin.ext ?_)
  match a with
  | ⟨0, _⟩ => show win1_6.index t (0 : Fin 1) * 64 + 1 * (y 0).val = (y 0).val; rw [e0]; omega

/-- Where an entry of the output block at point `t` sits in the output array. -/
theorem out_emb (t : Fin cfg1.N) (p : Fin 10000) (q : Fin 64) :
    (((cfg1.win 7).blk t).view.emb (ix2 p q) : S50000x64.Idx) = ix2 ⟨t.val * 10000 + p.val, row_lt t p⟩ q := by
  obtain ⟨-, -, -, -, -, -, -, -, -, -, -, -, e0, e1⟩ := idx_facts t
  refine funext fun a => Fin.ext ?_
  match a with
  | ⟨0, _⟩ => show win1_7.index t (0 : Fin 2) * 10000 + 1 * p.val = t.val * 10000 + p.val; rw [e0]; omega
  | ⟨1, _⟩ => show win1_7.index t (1 : Fin 2) * 64 + 1 * q.val = q.val; rw [e1]; omega

/-! ## What a point writes back, the cover, the final array -/

/-- WHAT POINT `t` WRITES BACK is block `t` of the node layer of the whole arrays. -/
theorem flushed_eq (c : Dev nD) (t : Fin cfg1.N) :
    (dat1 V c).flushed 7 t = ((cfg1.win 7).blk t).view.read (Elt Ideal) (nodeArr V c) := by
  show (cfg1.win 7).cut (grid1.coords t) ((dat1 V c).after 7 t) = _
  rw [after1_7]
  unfold out1_7
  rw [View.canon_unit_zero hz2]
  simp only [View.ld_unit_zero (S := S10000x64) hz2, View.ld_unit_zero (S := S10000x128) hz2,
    View.ld_unit_zero (S := S64x128) hz2, View.ld_unit_zero (S := S128x128) hz2, View.ld_unit_zero (S := S128) hz1,
    View.ld_unit_zero (S := S128x64) hz2, View.ld_unit_zero (S := S64) hz1]
  funext y
  obtain ⟨p, q, rfl⟩ : ∃ (p : Fin 10000) (q : Fin 64), y = ix2 p q := ⟨y 0, y 1, eq_ix2 y⟩
  show k1_pay1 (F := Ideal) (iblk1 V c 0 t) (iblk1 V c 1 t) (iblk1 V c 2 t) (iblk1 V c 3 t) (iblk1 V c 4 t) (iblk1 V c 5 t)
      (iblk1 V c 6 t) (ix2 p q) = nodeArr V c (((cfg1.win 7).blk t).view.emb (ix2 p q))
  refine (Payloads.node_pay_at (iblk1 V c 0 t) (iblk1 V c 1 t) (iblk1 V c 2 t) (iblk1 V c 3 t) (iblk1 V c 4 t)
    (iblk1 V c 5 t) (iblk1 V c 6 t) p q).trans ?_
  rw [out_emb t p q, wn_blk_eq V c t, wg_blk_eq V c t, b1_blk_eq V c t, w2_blk_eq V c t, b2_blk_eq V c t]
  exact Cert.Mp.nodeAt_congr _ _ _ _ _ _ _ _ _ p ⟨t.val * 10000 + p.val, row_lt t p⟩ q
    (nf_blk_at V c t p) (agg_blk_at V c t p)

/-- An index of the output array is in point `t`'s block iff each coordinate is in the block's range on its axis. -/
theorem mem_blk (t : Fin cfg1.N) (i : S50000x64.Idx) :
    i ∈ ((cfg1.win 7).blk t).view.set ↔ ∀ a : Fin 2, win1_7.index t a * S10000x64.size a ≤ (i a).val
      ∧ (i a).val < win1_7.index t a * S10000x64.size a + S10000x64.size a := by
  show i ∈ ((View.whole main_v36).slice (win1_7.rect t)).set ↔ _
  rw [View.set_slice_whole, Rect.mem_set_unit]
  exact Iff.rfl

/-- Every index of the output array is in the block of the point that owns its row: `row / 10000`. -/
theorem cover (i : S50000x64.Idx) :
    ∃ t : Fin cfg1.N, (cfg1.win 7).flush t = true ∧ i ∈ ((cfg1.win 7).blk t).view.set := by
  have hN : cfg1.N = 5 := N_1
  have hi0 : (i 0).val < 50000 := (i 0).isLt
  have hi1 : (i 1).val < 64 := (i 1).isLt
  refine ⟨⟨(i 0).val / 10000, by rw [hN]; omega⟩, flush1_7 _, ?_⟩
  rw [mem_blk]
  obtain ⟨-, -, -, -, -, -, -, -, -, -, -, -, e0, e1⟩ := idx_facts ⟨(i 0).val / 10000, by rw [hN]; omega⟩
  intro a
  match a with
  | ⟨0, _⟩ =>
    show win1_7.index _ (0 : Fin 2) * 10000 ≤ (i 0).val ∧ (i 0).val < win1_7.index _ (0 : Fin 2) * 10000 + 10000
    rw [e0]; show (i 0).val / 10000 * 10000 ≤ (i 0).val ∧ (i 0).val < (i 0).val / 10000 * 10000 + 10000; omega
  | ⟨1, _⟩ =>
    show win1_7.index _ (1 : Fin 2) * 64 ≤ (i 1).val ∧ (i 1).val < win1_7.index _ (1 : Fin 2) * 64 + 64
    rw [e1]; omega

/-- THE OUTPUT ARRAY when the region is left: the node layer of the arrays it found. -/
theorem final (c : Dev nD) : (dat1 V c).arrAt 7 cfg1.N = nodeArr V c :=
  (dat1 V c).arrAt_eq_of_cover 7 (nodeArr V c) (fun t _ => flushed_eq V c t) cover

end Cert.KernelIdeal.NodeRegion

end
-- ==== Proof.KernelValue.lean ====
/-
  The idealized kernel program's two results as functions of its argument arrays.

  Read along @main: the host operations before the edge kernel slice the two rows of the edge index array, put
  negative indices in range, gather the source and target rows of the node features, and cut the edge weights into
  three row blocks (every change of float format is the identity at the ideal values and is left as printed here).
  The edge kernel's region leaves the edge layer of those arrays in `main_v26` (`EdgeRegion.final`). The host
  operations between the kernels scatter-add the edge features into a zero array by the first index row and cut the
  first node weights into two row blocks; the node kernel's region leaves the node layer of those arrays in `main_v36`
  (`NodeRegion.final`). Each buffer's contents at a segment boundary is read back through the boundaries before it:
  a host stretch by its operations' results, a region by "its arrays as the pipeline leaves them, every other buffer as
  entered".
-/
import proofs.«122805_j146028888089_2_alg».proof.Proof.EdgeRegion
import proofs.«122805_j146028888089_2_alg».proof.Proof.NodeRegion
import Idealize.ShloMosaic.Lib.StableHlo.Run

set_option maxRecDepth 16384

noncomputable section

namespace Cert.KernelIdeal.HostSide

open Cert.KernelIdeal Cert.KernelIdeal.Gen Idealize.ShloMosaic Idealize.ShloMosaic.TcCoe Idealize.SL.Sem
open Idealize.ShloMosaic.StableHlo
open Idealize.ShloMosaic.Pipeline (Dat)

/-! ## The host terms -/

/-- Row 0 of the edge index array (the scatter targets and the sources' node numbers), as a vector. -/
def idxRow0 (a1 : S2x800000.Idx → BitVec 32) : S800000.Idx → BitVec 32 :=
  shapeCast _ (extractStridedSlice S1x800000 ![0, 0] a1 slices_S2x800000_S1x800000_0_0) shapeCasts_S1x800000_S800000

/-- Row 1 of the edge index array (the targets' node numbers), as a vector. -/
def idxRow1 (a1 : S2x800000.Idx → BitVec 32) : S800000.Idx → BitVec 32 :=
  shapeCast _ (extractStridedSlice S1x800000 ![1, 0] a1 slices_S2x800000_S1x800000_1_0) shapeCasts_S1x800000_S800000

/-- A vector of node numbers with the negative ones moved up by the node count, as the gather's column of start
    indices. -/
def normCol (v : S800000.Idx → BitVec 32) : S800000x1.Idx → BitVec 32 :=
  broadcastInDim S800000x1 ![0] bcast_S800000_S800000x1_0
    (select (cmpi .slt v (broadcastInDim S800000 ![] bcast_S_S800000 (constantI S_ 32 0#32)))
      (addi v (broadcastInDim S800000 ![] bcast_S_S800000 (constantI S_ 32 50000#32))) v)

/-- The node features' rows gathered at a column of start indices. -/
def gathered (a0 : S50000x64.Idx → EReal) (ix : S800000x1.Idx → BitVec 32) : S800000x64.Idx → EReal :=
  Host.gather gather_S50000x64_S800000x1_S800000x64_1_0_n_n_0_1_164
    (truncf (F := Ideal) (φ := .f32) .bf16 a0 bitsLt_bf16_f32 : FVec Ideal S50000x64 .bf16) ix

/-- The edge features scatter-added into a zero array by the first index row. -/
def aggregated (a1 : S2x800000.Idx → BitVec 32) (E : S800000x128.Idx → EReal) : S50000x128.Idx → EReal :=
  truncf (F := Ideal) (φ := .f32) .bf16
    (Host.scatterAdd scatter_S50000x128_S800000x1_S800000x128_1_0_0_1
      (broadcastInDim S50000x128 ![] bcast_S_S50000x128 (constant (F := Ideal) S_ .f32 0x00000000#32))
      (broadcastInDim S800000x1 ![0] bcast_S800000_S800000x1_0 (idxRow0 a1)) E : FVec Ideal S50000x128 .f32)
    bitsLt_bf16_f32

variable (m : (ℓ : Loc nD τ sig) → Buf (Elt Ideal) ℓ) (ρ : Dev nD → PrngReg)

/-! ## What the edge kernel's region finds (the contents after the first host stretch) -/

theorem V1_src (c : Dev nD) : (V1 m ρ c main_v11 : S800000x64.Idx → EReal)
    = gathered (m ((c : Thread nD τ).loc main_arg0)) (normCol (idxRow0 (m ((c : Thread nD τ).loc main_arg1)))) := by
  show StableHlo.after hostOps0 (W0 m ρ c) (Proc.devRef .tc main_v11) = _
  after_results <;> rfl

set_option maxHeartbeats 4000000 in
theorem V1_tgt (c : Dev nD) : (V1 m ρ c main_v18 : S800000x64.Idx → EReal)
    = gathered (m ((c : Thread nD τ).loc main_arg0)) (normCol (idxRow1 (m ((c : Thread nD τ).loc main_arg1)))) := by
  show StableHlo.after hostOps0 (W0 m ρ c) (Proc.devRef .tc main_v18) = _
  after_results <;> rfl

theorem V1_ea (c : Dev nD) : (V1 m ρ c main_v19 : S800000x16.Idx → EReal)
    = truncf (F := Ideal) (φ := .f32) .bf16 (m ((c : Thread nD τ).loc main_arg2)) bitsLt_bf16_f32 := by
  show StableHlo.after hostOps0 (W0 m ρ c) (Proc.devRef .tc main_v19) = _
  after_results <;> rfl

theorem V1_ws (c : Dev nD) : (V1 m ρ c main_v21 : S64x128.Idx → EReal)
    = truncf (F := Ideal) (φ := .f32) .bf16
        (extractStridedSlice S64x128 ![0, 0] (m ((c : Thread nD τ).loc main_arg3)) slices_S144x128_S64x128_0_0) bitsLt_bf16_f32 := by
  show StableHlo.after hostOps0 (W0 m ρ c) (Proc.devRef .tc main_v21) = _
  after_results <;> rfl

theorem V1_wt (c : Dev nD) : (V1 m ρ c main_v23 : S64x128.Idx → EReal)
    = truncf (F := Ideal) (φ := .f32) .bf16
        (extractStridedSlice S64x128 ![64, 0] (m ((c : Thread nD τ).loc main_arg3)) slices_S144x128_S64x128_64_0) bitsLt_bf16_f32 := by
  show StableHlo.after hostOps0 (W0 m ρ c) (Proc.devRef .tc main_v23) = _
  after_results <;> rfl

theorem V1_wa (c : Dev nD) : (V1 m ρ c main_v25 : S16x128.Idx → EReal)
    = truncf (F := Ideal) (φ := .f32) .bf16
        (extractStridedSlice S16x128 ![128, 0] (m ((c : Thread nD τ).loc main_arg3)) slices_S144x128_S16x128_128_0) bitsLt_bf16_f32 := by
  show StableHlo.after hostOps0 (W0 m ρ c) (Proc.devRef .tc main_v25) = _
  after_results <;> rfl

theorem V1_be (c : Dev nD) : (V1 m ρ c main_arg4 : S128.Idx → EReal) = m ((c : Thread nD τ).loc main_arg4) := by
  show StableHlo.after hostOps0 (W0 m ρ c) (Proc.devRef .tc main_arg4) = _
  after_results <;> rfl

/-- The edge features as the edge kernel's region leaves them. -/
abbrev edgeOut (c : Dev nD) : S800000x128.Idx → EReal :=
  Cert.Mp.edgeFeat (R := 800000)
    (gathered (m ((c : Thread nD τ).loc main_arg0)) (normCol (idxRow0 (m ((c : Thread nD τ).loc main_arg1)))))
    (gathered (m ((c : Thread nD τ).loc main_arg0)) (normCol (idxRow1 (m ((c : Thread nD τ).loc main_arg1)))))
    (truncf (F := Ideal) (φ := .f32) .bf16 (m ((c : Thread nD τ).loc main_arg2)) bitsLt_bf16_f32)
    (truncf (F := Ideal) (φ := .f32) .bf16
      (extractStridedSlice S64x128 ![0, 0] (m ((c : Thread nD τ).loc main_arg3)) slices_S144x128_S64x128_0_0) bitsLt_bf16_f32)
    (truncf (F := Ideal) (φ := .f32) .bf16
      (extractStridedSlice S64x128 ![64, 0] (m ((c : Thread nD τ).loc main_arg3)) slices_S144x128_S64x128_64_0) bitsLt_bf16_f32)
    (truncf (F := Ideal) (φ := .f32) .bf16
      (extractStridedSlice S16x128 ![128, 0] (m ((c : Thread nD τ).loc main_arg3)) slices_S144x128_S16x128_128_0) bitsLt_bf16_f32)
    (m ((c : Thread nD τ).loc main_arg4))

/-- The edge features' buffer after the edge kernel's region. -/
theorem W2_edge (c : Dev nD) : (W2 m ρ c (Proc.devRef .tc main_v26) : S800000x128.Idx → EReal) = edgeOut m c := by
  refine (W2_arr m ρ c 7).trans ((EdgeRegion.final (V1 m ρ) c).trans ?_)
  unfold EdgeRegion.edgeArr edgeOut
  rw [V1_src, V1_tgt, V1_ea, V1_ws, V1_wt, V1_wa, V1_be]

/-! ## Buffers the edge kernel's region does not write, read back to the launch -/

theorem W2_idx (c : Dev nD) : (W2 m ρ c (Proc.devRef .tc main_v1) : S800000.Idx → BitVec 32)
    = idxRow0 (m ((c : Thread nD τ).loc main_arg1)) := by
  refine (W2_of_ne m ρ c main_v1 (by decide)).trans ?_
  show StableHlo.after hostOps0 (W0 m ρ c) (Proc.devRef .tc main_v1) = _
  after_results <;> rfl

theorem W2_nf (c : Dev nD) : (W2 m ρ c (Proc.devRef .tc main_v4) : S50000x64.Idx → EReal)
    = truncf (F := Ideal) (φ := .f32) .bf16 (m ((c : Thread nD τ).loc main_arg0)) bitsLt_bf16_f32 := by
  refine (W2_of_ne m ρ c main_v4 (by decide)).trans ?_
  show StableHlo.after hostOps0 (W0 m ρ c) (Proc.devRef .tc main_v4) = _
  after_results <;> rfl

theorem W2_arg5 (c : Dev nD) : (W2 m ρ c (Proc.devRef .tc main_arg5) : S192x128.Idx → EReal)
    = m ((c : Thread nD τ).loc main_arg5) := by
  refine (W2_of_ne m ρ c main_arg5 (by decide)).trans ?_
  show StableHlo.after hostOps0 (W0 m ρ c) (Proc.devRef .tc main_arg5) = _
  after_results <;> rfl

theorem W2_arg6 (c : Dev nD) : (W2 m ρ c (Proc.devRef .tc main_arg6) : S128.Idx → EReal)
    = m ((c : Thread nD τ).loc main_arg6) := by
  refine (W2_of_ne m ρ c main_arg6 (by decide)).trans ?_
  show StableHlo.after hostOps0 (W0 m ρ c) (Proc.devRef .tc main_arg6) = _
  after_results <;> rfl

theorem W2_arg7 (c : Dev nD) : (W2 m ρ c (Proc.devRef .tc main_arg7) : S128x64.Idx → EReal)
    = m ((c : Thread nD τ).loc main_arg7) := by
  refine (W2_of_ne m ρ c main_arg7 (by decide)).trans ?_
  show StableHlo.after hostOps0 (W0 m ρ c) (Proc.devRef .tc main_arg7) = _
  after_results <;> rfl

theorem W2_arg8 (c : Dev nD) : (W2 m ρ c (Proc.devRef .tc main_arg8) : S64.Idx → EReal)
    = m ((c : Thread nD τ).loc main_arg8) := by
  refine (W2_of_ne m ρ c main_arg8 (by decide)).trans ?_
  show StableHlo.after hostOps0 (W0 m ρ c) (Proc.devRef .tc main_arg8) = _
  after_results <;> rfl

/-! ## What the node kernel's region finds (the contents after the second host stretch) -/

theorem V3_nf (c : Dev nD) : (V3 m ρ c main_v4 : S50000x64.Idx → EReal)
    = truncf (F := Ideal) (φ := .f32) .bf16 (m ((c : Thread nD τ).loc main_arg0)) bitsLt_bf16_f32 := by
  refine Eq.trans ?_ (W2_nf m ρ c)
  show StableHlo.after hostOps1 (W2 m ρ c) (Proc.devRef .tc main_v4) = _
  after_results

theorem V3_agg (c : Dev nD) : (V3 m ρ c main_v35 : S50000x128.Idx → EReal)
    = aggregated (m ((c : Thread nD τ).loc main_arg1)) (edgeOut m c) := by
  unfold aggregated
  rw [← W2_edge m ρ c, ← W2_idx m ρ c]
  show StableHlo.after hostOps1 (W2 m ρ c) (Proc.devRef .tc main_v35) = _
  after_results <;> rfl

theorem V3_wn (c : Dev nD) : (V3 m ρ c main_v31 : S64x128.Idx → EReal)
    = truncf (F := Ideal) (φ := .f32) .bf16
        (extractStridedSlice S64x128 ![0, 0] (m ((c : Thread nD τ).loc main_arg5)) slices_S192x128_S64x128_0_0) bitsLt_bf16_f32 := by
  rw [← W2_arg5 m ρ c]
  show StableHlo.after hostOps1 (W2 m ρ c) (Proc.devRef .tc main_v31) = _
  after_results <;> rfl

theorem V3_wg (c : Dev nD) : (V3 m ρ c main_v33 : S128x128.Idx → EReal)
    = truncf (F := Ideal) (φ := .f32) .bf16
        (extractStridedSlice S128x128 ![64, 0] (m ((c : Thread nD τ).loc main_arg5)) slices_S192x128_S128x128_64_0) bitsLt_bf16_f32 := by
  rw [← W2_arg5 m ρ c]
  show StableHlo.after hostOps1 (W2 m ρ c) (Proc.devRef .tc main_v33) = _
  after_results <;> rfl

theorem V3_b1 (c : Dev nD) : (V3 m ρ c main_arg6 : S128.Idx → EReal) = m ((c : Thread nD τ).loc main_arg6) := by
  refine Eq.trans ?_ (W2_arg6 m ρ c)
  show StableHlo.after hostOps1 (W2 m ρ c) (Proc.devRef .tc main_arg6) = _
  after_results

theorem V3_w2 (c : Dev nD) : (V3 m ρ c main_v34 : S128x64.Idx → EReal)
    = truncf (F := Ideal) (φ := .f32) .bf16 (m ((c : Thread nD τ).loc main_arg7)) bitsLt_bf16_f32 := by
  rw [← W2_arg7 m ρ c]
  show StableHlo.after hostOps1 (W2 m ρ c) (Proc.devRef .tc main_v34) = _
  after_results <;> rfl

theorem V3_b2 (c : Dev nD) : (V3 m ρ c main_arg8 : S64.Idx → EReal) = m ((c : Thread nD τ).loc main_arg8) := by
  refine Eq.trans ?_ (W2_arg8 m ρ c)
  show StableHlo.after hostOps1 (W2 m ρ c) (Proc.devRef .tc main_arg8) = _
  after_results

/-- The node output as the node kernel's region leaves it. -/
abbrev nodeOutK (c : Dev nD) : S50000x64.Idx → EReal :=
  Cert.Mp.nodeOut (R := 50000)
    (truncf (F := Ideal) (φ := .f32) .bf16 (m ((c : Thread nD τ).loc main_arg0)) bitsLt_bf16_f32)
    (aggregated (m ((c : Thread nD τ).loc main_arg1)) (edgeOut m c))
    (truncf (F := Ideal) (φ := .f32) .bf16
      (extractStridedSlice S64x128 ![0, 0] (m ((c : Thread nD τ).loc main_arg5)) slices_S192x128_S64x128_0_0) bitsLt_bf16_f32)
    (truncf (F := Ideal) (φ := .f32) .bf16
      (extractStridedSlice S128x128 ![64, 0] (m ((c : Thread nD τ).loc main_arg5)) slices_S192x128_S128x128_64_0) bitsLt_bf16_f32)
    (m ((c : Thread nD τ).loc main_arg6))
    (truncf (F := Ideal) (φ := .f32) .bf16 (m ((c : Thread nD τ).loc main_arg7)) bitsLt_bf16_f32)
    (m ((c : Thread nD τ).loc main_arg8))

/-! ## The two results at the last boundary -/

/-- THE NODE OUTPUT's buffer when @main returns. -/
theorem W4_node (c : Dev nD) : (W4 m ρ c (Proc.devRef .tc main_v36) : S50000x64.Idx → EReal) = nodeOutK m c := by
  refine (W4_arr m ρ c 7).trans ((NodeRegion.final (V3 m ρ) c).trans ?_)
  unfold NodeRegion.nodeArr nodeOutK
  rw [V3_nf, V3_agg, V3_wn, V3_wg, V3_b1, V3_w2, V3_b2]

/-- THE EDGE FEATURES' buffer when @main returns: untouched since the edge kernel's region. -/
theorem W4_edge (c : Dev nD) : (W4 m ρ c (Proc.devRef .tc main_v26) : S800000x128.Idx → EReal) = edgeOut m c := by
  refine (W4_of_ne m ρ c main_v26 (by decide)).trans (Eq.trans ?_ (W2_edge m ρ c))
  show StableHlo.after hostOps1 (W2 m ρ c) (Proc.devRef .tc main_v26) = _
  after_results

end Cert.KernelIdeal.HostSide

end
-- ==== Proof.RefLayers.lean ====
/-
  The reference program's two results as the message-passing formulas of `Spec.lean`.

  The reference joins the gathered source rows, the gathered target rows and the edge attributes into one
  `[E, 144]` matrix and multiplies it by the whole edge weight matrix; a sum over the 144 joined columns is the sum of
  its sums over columns 0–63, 64–127 and 128–143, and in each range the joined matrix reads one of its pieces while
  the weight matrix reads the matching block of its rows. The node layer joins the node features with the aggregate
  the same way (64 + 128 columns). Nothing here needs the inputs finite: only commutativity and associativity of
  addition on the extended reals are used. The gather and the scatter-add stay unopened.
-/
import proofs.«122805_j146028888089_2_alg».proof.Proof.Gen.ReferenceIdeal.Read
import proofs.«122805_j146028888089_2_alg».proof.Proof.LibAffineLayer
import proofs.«122805_j146028888089_2_alg».proof.Proof.Spec

noncomputable section

namespace Cert.ReferenceIdeal.RefValue

open Cert.ReferenceIdeal Cert.ReferenceIdeal.Gen Cert.ReferenceIdeal.Read
open Idealize.ShloMosaic Idealize.ShloMosaic.ValueIdx Cert.Lib.AffineLayer

variable (x0 : (⟨S50000x64, .f32⟩ : BufTy).Contents (Elt Ideal)) (x1 : (⟨S2x800000, .i32⟩ : BufTy).Contents (Elt Ideal))
  (x2 : (⟨S800000x16, .f32⟩ : BufTy).Contents (Elt Ideal)) (x3 : (⟨S144x128, .f32⟩ : BufTy).Contents (Elt Ideal))
  (x4 : (⟨S128, .f32⟩ : BufTy).Contents (Elt Ideal)) (x5 : (⟨S192x128, .f32⟩ : BufTy).Contents (Elt Ideal))
  (x6 : (⟨S128, .f32⟩ : BufTy).Contents (Elt Ideal)) (x7 : (⟨S128x64, .f32⟩ : BufTy).Contents (Elt Ideal))
  (x8 : (⟨S64, .f32⟩ : BufTy).Contents (Elt Ideal))

/-! ## The edge layer -/

/-- The product of the joined `[E, 144]` matrix with the edge weights, at `(p, q)`: three sums, one per piece. -/
theorem edge_dot_at (p : Fin 800000) (q : Fin 128) :
    val_main_v19 (F := Ideal) x0 x1 x2 x3 (ix2 p q)
      = ((∑ k : Fin 64, val_main_v10 (F := Ideal) x0 x1 (ix2 p k) * rowBlock 0 64 (by decide) x3 (ix2 k q))
          + ∑ k : Fin 64, val_main_v17 (F := Ideal) x0 x1 (ix2 p k) * rowBlock 64 64 (by decide) x3 (ix2 k q))
        + ∑ k : Fin 16, x2 (ix2 p k) * rowBlock 128 16 (by decide) x3 (ix2 k q) := by
  unfold val_main_v19
  rw [dotGeneral_ix2 (M := 800000) (K := 144) (N := 128) dot_S800000x144_S144x128_S800000x128_1_0_0_1_n_n rfl, sum_split3 64 64 16 144 rfl]
  unfold val_main_v18
  refine congrArg₂ (· + ·) (congrArg₂ (· + ·) (Finset.sum_congr rfl fun k _ => ?_) (Finset.sum_congr rfl fun k _ => ?_))
    (Finset.sum_congr rfl fun k _ => ?_)
  · rw [rowBlock_ix2]
    exact congrArg₂ (· * ·)
      (concat3_fst (R := 800000) (a := 64) (b := 64) (c := 16) (n := 144) _ _ _ _ p k _ rfl)
      (congrArg x3 (congrArg (ix2 · q) (Fin.ext (Nat.zero_add _).symm)))
  · rw [rowBlock_ix2]
    exact congrArg₂ (· * ·)
      (concat3_snd (R := 800000) (a := 64) (b := 64) (c := 16) (n := 144) _ _ _ _ p k _ rfl) rfl
  · rw [rowBlock_ix2]
    exact congrArg₂ (· * ·)
      (concat3_thd (R := 800000) (a := 64) (b := 64) (c := 16) (n := 144) _ _ _ _ p k _ rfl) rfl

/-- The edge bias broadcast over the edges, at `(p, q)`. -/
theorem edge_bias_at (p : Fin 800000) (q : Fin 128) : val_main_v21 (F := Ideal) x4 (ix2 p q) = x4 (ix1 q) := by
  rw [val_main_v21_apply, val_main_v20_apply]
  exact congrArg x4 (funext fun a => match a with | ⟨0, _⟩ => rfl)

/-- The zero the edge layer's rectifier compares with. -/
theorem edge_zero_at (j : S800000x128.Idx) : val_main_call0_v0 (F := Ideal) j = Ideal.ofBits .f32 0x00000000#32 := by
  rw [val_main_call0_v0_apply]; rfl

/-- THE EDGE FEATURES the reference returns are the edge layer of the gathered rows, the attributes and the three row
    blocks of the edge weights. -/
theorem edge_eq :
    val_main_v23 (F := Ideal) x0 x1 x2 x3 x4
      = Cert.Mp.edgeFeat (R := 800000) (val_main_v10 (F := Ideal) x0 x1) (val_main_v17 (F := Ideal) x0 x1) x2
          (rowBlock 0 64 (by decide) x3) (rowBlock 64 64 (by decide) x3) (rowBlock 128 16 (by decide) x3) x4 := by
  funext j
  obtain ⟨p, q, rfl⟩ : ∃ (p : Fin 800000) (q : Fin 128), j = ix2 p q := ⟨j 0, j 1, eq_ix2 j⟩
  show max (val_main_v19 (F := Ideal) x0 x1 x2 x3 (ix2 p q) + val_main_v21 (F := Ideal) x4 (ix2 p q))
      (val_main_call0_v0 (F := Ideal) (ix2 p q)) = _
  rw [edge_dot_at, edge_bias_at, edge_zero_at]
  rfl

/-! ## The node layer -/

/-- The product of the joined `[N, 192]` matrix with the first node weights, at `(p, q)`: two sums, one per piece. -/
theorem node_dot_at (p : Fin 50000) (q : Fin 128) :
    val_main_v28 (F := Ideal) x0 x1 x2 x3 x4 x5 (ix2 p q)
      = (∑ k : Fin 64, x0 (ix2 p k) * rowBlock 0 64 (by decide) x5 (ix2 k q))
        + ∑ k : Fin 128, val_main_v26 (F := Ideal) x0 x1 x2 x3 x4 (ix2 p k) * rowBlock 64 128 (by decide) x5 (ix2 k q) := by
  unfold val_main_v28
  rw [dotGeneral_ix2 (M := 50000) (K := 192) (N := 128) dot_S50000x192_S192x128_S50000x128_1_0_0_1_n_n rfl, sum_split2 64 128 192 rfl]
  unfold val_main_v27
  refine congrArg₂ (· + ·) (Finset.sum_congr rfl fun k _ => ?_) (Finset.sum_congr rfl fun k _ => ?_)
  · rw [rowBlock_ix2]
    exact congrArg₂ (· * ·)
      (concat2_left (R := 50000) (a := 64) (b := 128) (n := 192) _ _ _ p k _ rfl)
      (congrArg x5 (congrArg (ix2 · q) (Fin.ext (Nat.zero_add _).symm)))
  · rw [rowBlock_ix2]
    exact congrArg₂ (· * ·)
      (concat2_right (R := 50000) (a := 64) (b := 128) (n := 192) _ _ _ p k _ rfl) rfl

/-- The first node bias broadcast over the nodes, at `(p, q)`. -/
theorem node_bias1_at (p : Fin 50000) (q : Fin 128) : val_main_v30 (F := Ideal) x6 (ix2 p q) = x6 (ix1 q) := by
  rw [val_main_v30_apply, val_main_v29_apply]
  exact congrArg x6 (funext fun a => match a with | ⟨0, _⟩ => rfl)

/-- The zero the node layer's rectifier compares with. -/
theorem node_zero_at (j : S50000x128.Idx) : val_main_call1_v0 (F := Ideal) j = Ideal.ofBits .f32 0x00000000#32 := by
  rw [val_main_call1_v0_apply]; rfl

/-- The hidden activations of the node layer, at `(p, q)`. -/
theorem hidden_at (p : Fin 50000) (q : Fin 128) :
    val_main_v32 (F := Ideal) x0 x1 x2 x3 x4 x5 x6 (ix2 p q)
      = Cert.Mp.hiddenAt (R := 50000) x0 (val_main_v26 (F := Ideal) x0 x1 x2 x3 x4)
          (rowBlock 0 64 (by decide) x5) (rowBlock 64 128 (by decide) x5) x6 p q := by
  show max (val_main_v28 (F := Ideal) x0 x1 x2 x3 x4 x5 (ix2 p q) + val_main_v30 (F := Ideal) x6 (ix2 p q))
      (val_main_call1_v0 (F := Ideal) (ix2 p q)) = _
  rw [node_dot_at, node_bias1_at, node_zero_at]
  rfl

/-- The second node bias broadcast over the nodes, at `(p, q)`. -/
theorem node_bias2_at (p : Fin 50000) (q : Fin 64) : val_main_v35 (F := Ideal) x8 (ix2 p q) = x8 (ix1 q) := by
  rw [val_main_v35_apply, val_main_v34_apply]
  exact congrArg x8 (funext fun a => match a with | ⟨0, _⟩ => rfl)

/-- THE NODE OUTPUT the reference returns is the node layer of the node features, the aggregate (the scatter-add of the
    edge features, unopened), the two row blocks of the first weights, and the second weights and biases. -/
theorem node_eq :
    val_main_v36 (F := Ideal) x0 x1 x2 x3 x4 x5 x6 x7 x8
      = Cert.Mp.nodeOut (R := 50000) x0 (val_main_v26 (F := Ideal) x0 x1 x2 x3 x4)
          (rowBlock 0 64 (by decide) x5) (rowBlock 64 128 (by decide) x5) x6 x7 x8 := by
  funext j
  obtain ⟨p, q, rfl⟩ : ∃ (p : Fin 50000) (q : Fin 64), j = ix2 p q := ⟨j 0, j 1, eq_ix2 j⟩
  show val_main_v33 (F := Ideal) x0 x1 x2 x3 x4 x5 x6 x7 (ix2 p q) + val_main_v35 (F := Ideal) x8 (ix2 p q) = _
  rw [node_bias2_at]
  unfold val_main_v33
  rw [dotGeneral_ix2 (M := 50000) (K := 128) (N := 64) dot_S50000x128_S128x64_S50000x64_1_0_0_1_n_n rfl]
  show _ = (∑ k : Fin 128, Cert.Mp.hiddenAt (R := 50000) x0 _ _ _ x6 p k * x7 (ix2 k q)) + x8 (ix1 q)
  refine congrArg (· + x8 (ix1 q)) (Finset.sum_congr rfl fun k _ => ?_)
  rw [hidden_at]

end Cert.ReferenceIdeal.RefValue

end
-- ==== Proof.Bridge.lean ====
/-
  The kernel program's two results are the reference's two results, as functions of the same argument arrays.

  Both sides are the message-passing formulas of `Spec.lean`: the kernel's over the gathered rows, the attributes and
  the row blocks of the weights as its host operations produce them (`KernelValue.lean`), the reference's over its own
  stages (`RefLayers.lean`). The two programs gather with the same start indices from the same node features, cut the
  same row blocks out of the weights (a slice along the rows IS the block of rows), and scatter-add by the same index
  row; the kernel's changes of float format are the identity at the ideal values. So the operands agree one by one,
  and the scatter-add and the gathers are never opened.
-/
import proofs.«122805_j146028888089_2_alg».proof.Proof.KernelValue
import proofs.«122805_j146028888089_2_alg».proof.Proof.RefLayers

noncomputable section

namespace Cert.Proof.Bridge

open Idealize.ShloMosaic Idealize.ShloMosaic.TcCoe Idealize.SL.Sem Cert.Lib.AffineLayer
open Cert.KernelIdeal.HostSide Cert.ReferenceIdeal.Read

variable (a0 : Cert.KernelIdeal.S50000x64.Idx → EReal) (a1 : Cert.KernelIdeal.S2x800000.Idx → BitVec 32)
  (a2 : Cert.KernelIdeal.S800000x16.Idx → EReal) (a3 : Cert.KernelIdeal.S144x128.Idx → EReal)
  (a4 : Cert.KernelIdeal.S128.Idx → EReal) (a5 : Cert.KernelIdeal.S192x128.Idx → EReal)
  (a6 : Cert.KernelIdeal.S128.Idx → EReal) (a7 : Cert.KernelIdeal.S128x64.Idx → EReal)
  (a8 : Cert.KernelIdeal.S64.Idx → EReal)

/-- A change of float format is the identity at the ideal values. -/
theorem truncf_id {s : Shape} {φ ψ : FTy} (a : FVec Ideal s φ) (h : ψ.bits < φ.bits) :
    (truncf (F := Ideal) ψ a h : s.Idx → EReal) = a := rfl

/-- The gathered source rows: the same gather of the same node features at the same start indices. -/
theorem src_eq : gathered a0 (normCol (idxRow0 a1)) = val_main_v10 (F := Ideal) a0 a1 := rfl

/-- The gathered target rows. -/
theorem tgt_eq : gathered a0 (normCol (idxRow1 a1)) = val_main_v17 (F := Ideal) a0 a1 := rfl

/-- The three row blocks of the edge weights. -/
theorem ws_eq : (truncf (F := Ideal) (φ := .f32) .bf16
      (extractStridedSlice Cert.KernelIdeal.S64x128 ![0, 0] a3 Cert.KernelIdeal.Gen.slices_S144x128_S64x128_0_0)
      Cert.KernelIdeal.Gen.bitsLt_bf16_f32 : Cert.KernelIdeal.S64x128.Idx → EReal) = rowBlock 0 64 (by decide) a3 :=
  slice_rows_eq (n := 144) (c := 128) (r := 64) 0 (by decide) a3 Cert.KernelIdeal.Gen.slices_S144x128_S64x128_0_0
theorem wt_eq : (truncf (F := Ideal) (φ := .f32) .bf16
      (extractStridedSlice Cert.KernelIdeal.S64x128 ![64, 0] a3 Cert.KernelIdeal.Gen.slices_S144x128_S64x128_64_0)
      Cert.KernelIdeal.Gen.bitsLt_bf16_f32 : Cert.KernelIdeal.S64x128.Idx → EReal) = rowBlock 64 64 (by decide) a3 :=
  slice_rows_eq (n := 144) (c := 128) (r := 64) 64 (by decide) a3 Cert.KernelIdeal.Gen.slices_S144x128_S64x128_64_0
theorem wa_eq : (truncf (F := Ideal) (φ := .f32) .bf16
      (extractStridedSlice Cert.KernelIdeal.S16x128 ![128, 0] a3 Cert.KernelIdeal.Gen.slices_S144x128_S16x128_128_0)
      Cert.KernelIdeal.Gen.bitsLt_bf16_f32 : Cert.KernelIdeal.S16x128.Idx → EReal) = rowBlock 128 16 (by decide) a3 :=
  slice_rows_eq (n := 144) (c := 128) (r := 16) 128 (by decide) a3 Cert.KernelIdeal.Gen.slices_S144x128_S16x128_128_0

/-- The two row blocks of the first node weights. -/
theorem wn_eq : (truncf (F := Ideal) (φ := .f32) .bf16
      (extractStridedSlice Cert.KernelIdeal.S64x128 ![0, 0] a5 Cert.KernelIdeal.Gen.slices_S192x128_S64x128_0_0)
      Cert.KernelIdeal.Gen.bitsLt_bf16_f32 : Cert.KernelIdeal.S64x128.Idx → EReal) = rowBlock 0 64 (by decide) a5 :=
  slice_rows_eq (n := 192) (c := 128) (r := 64) 0 (by decide) a5 Cert.KernelIdeal.Gen.slices_S192x128_S64x128_0_0
theorem wg_eq : (truncf (F := Ideal) (φ := .f32) .bf16
      (extractStridedSlice Cert.KernelIdeal.S128x128 ![64, 0] a5 Cert.KernelIdeal.Gen.slices_S192x128_S128x128_64_0)
      Cert.KernelIdeal.Gen.bitsLt_bf16_f32 : Cert.KernelIdeal.S128x128.Idx → EReal) = rowBlock 64 128 (by decide) a5 :=
  slice_rows_eq (n := 192) (c := 128) (r := 128) 64 (by decide) a5 Cert.KernelIdeal.Gen.slices_S192x128_S128x128_64_0

/-- THE EDGE FEATURES: the kernel program's are the reference's. -/
theorem edge_eq :
    Cert.Mp.edgeFeat (R := 800000) (gathered a0 (normCol (idxRow0 a1))) (gathered a0 (normCol (idxRow1 a1)))
        (truncf (F := Ideal) (φ := .f32) .bf16 a2 Cert.KernelIdeal.Gen.bitsLt_bf16_f32)
        (truncf (F := Ideal) (φ := .f32) .bf16
          (extractStridedSlice Cert.KernelIdeal.S64x128 ![0, 0] a3 Cert.KernelIdeal.Gen.slices_S144x128_S64x128_0_0)
          Cert.KernelIdeal.Gen.bitsLt_bf16_f32)
        (truncf (F := Ideal) (φ := .f32) .bf16
          (extractStridedSlice Cert.KernelIdeal.S64x128 ![64, 0] a3 Cert.KernelIdeal.Gen.slices_S144x128_S64x128_64_0)
          Cert.KernelIdeal.Gen.bitsLt_bf16_f32)
        (truncf (F := Ideal) (φ := .f32) .bf16
          (extractStridedSlice Cert.KernelIdeal.S16x128 ![128, 0] a3 Cert.KernelIdeal.Gen.slices_S144x128_S16x128_128_0)
          Cert.KernelIdeal.Gen.bitsLt_bf16_f32)
        a4
      = val_main_v23 (F := Ideal) a0 a1 a2 a3 a4 := by
  rw [Cert.ReferenceIdeal.RefValue.edge_eq, src_eq, tgt_eq, ws_eq, wt_eq, wa_eq, truncf_id]

/-- The aggregate: the same scatter-add, into the same zero array, by the same index row, of equal edge features. -/
theorem agg_eq (E : Cert.KernelIdeal.S800000x128.Idx → EReal) (hE : E = val_main_v23 (F := Ideal) a0 a1 a2 a3 a4) :
    aggregated a1 E = val_main_v26 (F := Ideal) a0 a1 a2 a3 a4 := by
  subst hE
  unfold aggregated val_main_v26
  rw [truncf_id]
  have hz : broadcastInDim Cert.KernelIdeal.S50000x128 ![] Cert.KernelIdeal.Gen.bcast_S_S50000x128
      (constant (F := Ideal) Cert.KernelIdeal.S_ .f32 0x00000000#32) = val_main_v24 (F := Ideal) := rfl
  have hi : broadcastInDim Cert.KernelIdeal.S800000x1 ![0] Cert.KernelIdeal.Gen.bcast_S800000_S800000x1_0 (idxRow0 a1)
      = val_main_v25 (F := Ideal) a1 := rfl
  have hs : Cert.KernelIdeal.scatter_S50000x128_S800000x1_S800000x128_1_0_0_1
      = Cert.ReferenceIdeal.scatter_S50000x128_S800000x1_S800000x128_1_0_0_1 := rfl
  rw [hz, hi, hs]

/-- THE NODE OUTPUT: the kernel program's is the reference's. -/
theorem node_eq (E : Cert.KernelIdeal.S800000x128.Idx → EReal) (hE : E = val_main_v23 (F := Ideal) a0 a1 a2 a3 a4) :
    Cert.Mp.nodeOut (R := 50000) (truncf (F := Ideal) (φ := .f32) .bf16 a0 Cert.KernelIdeal.Gen.bitsLt_bf16_f32)
        (aggregated a1 E)
        (truncf (F := Ideal) (φ := .f32) .bf16
          (extractStridedSlice Cert.KernelIdeal.S64x128 ![0, 0] a5 Cert.KernelIdeal.Gen.slices_S192x128_S64x128_0_0)
          Cert.KernelIdeal.Gen.bitsLt_bf16_f32)
        (truncf (F := Ideal) (φ := .f32) .bf16
          (extractStridedSlice Cert.KernelIdeal.S128x128 ![64, 0] a5 Cert.KernelIdeal.Gen.slices_S192x128_S128x128_64_0)
          Cert.KernelIdeal.Gen.bitsLt_bf16_f32)
        a6 (truncf (F := Ideal) (φ := .f32) .bf16 a7 Cert.KernelIdeal.Gen.bitsLt_bf16_f32) a8
      = val_main_v36 (F := Ideal) a0 a1 a2 a3 a4 a5 a6 a7 a8 := by
  rw [Cert.ReferenceIdeal.RefValue.node_eq, agg_eq a0 a1 a2 a3 a4 E hE, wn_eq, wg_eq, truncf_id, truncf_id]

end Cert.Proof.Bridge

end
-- ==== Proof.lean ====
/-
  One message-passing layer of a graph network — gather the two end nodes' features of every edge, an edge layer
  `relu([src, tgt, attr] · Wₑ + bₑ)`, a scatter-add of the edge features onto the source nodes, and a node layer
  `relu([x, agg] · W₁ + b₁) · W₂ + b₂` — computed by two tiled kernels around host gathers and a host scatter-add,
  against the plain jnp formula.

  At the ideal values the two programs compute the same extended reals, entry by entry:
    * a product of a column-joined matrix `[A, B, C]` with `W` is `A·W₁ + B·W₂ + C·W₃` over the matching row blocks of
      `W` — a finite sum split into consecutive ranges, which needs only that addition on the extended reals is
      commutative and associative, so the finiteness of the inputs is never used;
    * each kernel entry depends on its own row only, so the kernels' row tiles (80 of 10000 edges, 5 of 10000 nodes)
      assemble to the whole arrays;
    * the kernels' roundings to bf16 are the identity at the ideal values;
    * the gathers and the scatter-add are the same operations on equal operands in both programs and stay unopened.
  The frames of the two kernel programs are the generated ones; the reference's frame is its generated run with the
  results dropped; the idealization rewrote nothing, so `preserves` is trivial.
-/
import proofs.«122805_j146028888089_2_alg».proof.Defs
import proofs.«122805_j146028888089_2_alg».proof.Proof.Gen.Kernel
import proofs.«122805_j146028888089_2_alg».proof.Proof.Gen.Kernel.Skeleton
import proofs.«122805_j146028888089_2_alg».proof.Proof.Gen.Kernel.Launch
import proofs.«122805_j146028888089_2_alg».proof.Proof.Gen.Kernel.Points
import proofs.«122805_j146028888089_2_alg».proof.Proof.Gen.Kernel.Frame
import proofs.«122805_j146028888089_2_alg».proof.Proof.Gen.KernelIdeal
import proofs.«122805_j146028888089_2_alg».proof.Proof.Gen.KernelIdeal.Skeleton
import proofs.«122805_j146028888089_2_alg».proof.Proof.Gen.KernelIdeal.Launch
import proofs.«122805_j146028888089_2_alg».proof.Proof.Gen.KernelIdeal.Points
import proofs.«122805_j146028888089_2_alg».proof.Proof.Gen.KernelIdeal.Frame
import proofs.«122805_j146028888089_2_alg».proof.Proof.Gen.ReferenceIdeal
import proofs.«122805_j146028888089_2_alg».proof.Proof.Gen.Pre_finite_inputs
import proofs.«122805_j146028888089_2_alg».proof.Proof.Gen.ReferenceIdeal.Run
import proofs.«122805_j146028888089_2_alg».proof.Proof.Gen.ReferenceIdeal.Read
import proofs.«122805_j146028888089_2_alg».proof.Proof.KernelResults
import proofs.«122805_j146028888089_2_alg».proof.Proof.KernelValue
import proofs.«122805_j146028888089_2_alg».proof.Proof.Bridge
import Idealize.ShloMosaic.Adequacy
import Idealize.ShloMosaic.Init

noncomputable section

namespace Cert.Proof

open Idealize.ShloMosaic Idealize.ShloMosaic.TcCoe Idealize.SL.Sem

/-- The kernel program runs and leaves its arguments as launched. -/
theorem frame_kernel : Cert.frame_Kernel := fun m ρ _ => Cert.Kernel.Gen.frame m ρ

/-- The idealized kernel program runs and leaves its arguments as launched. -/
theorem frame_kernelIdeal : Cert.frame_KernelIdeal := fun m ρ _ => Cert.KernelIdeal.Gen.frame m ρ

/-- The reference runs and leaves its arguments as launched: its run with the results dropped. -/
theorem frame_reference : Cert.frame_ReferenceIdeal := fun m ρ _ =>
  (θ_run Cert.ReferenceIdeal.defs _ _).mono (fun _ h c => (h c).2.2)
    (Cert.ReferenceIdeal.Value.run (F := Ideal) m ρ)

/-- The idealized kernel program's run with both results at their functions of the arguments. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v36) = Cert.KernelIdeal.HostSide.nodeOutK m c
        ∧ r.2.mem ((c.tc : Thread Cert.KernelIdeal.nD Cert.KernelIdeal.τ).loc Cert.KernelIdeal.main_v26) = Cert.KernelIdeal.HostSide.edgeOut m c
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)) :=
  (θ_run Cert.KernelIdeal.defs _ _).mono
    (fun r h c => ⟨(h c).1.trans (Cert.KernelIdeal.HostSide.W4_node m ρ c),
      (h c).2.1.trans (Cert.KernelIdeal.HostSide.W4_edge m ρ c), (h c).2.2⟩)
    (Cert.KernelIdeal.Results.run (F := Ideal) m ρ)

/-- Both programs, from memories agreeing on the arguments, end with the same node output and the same edge features. -/
theorem algebraic : Cert.algebraic_KernelIdeal_ReferenceIdeal := by
  intro m ρ m' ρ' _ hagree
  refine ⟨fun c => Cert.KernelIdeal.HostSide.nodeOutK m c, fun c => Cert.KernelIdeal.HostSide.edgeOut m c,
    kernel_run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨g0, g1, g2, g3, g4, g5, g6, g7, g8⟩ := hagree c
    rw [Cert.ReferenceIdeal.Read.val_main_v36_eq, g0, g1, g2, g3, g4, g5, g6, g7, g8]
    exact (Bridge.node_eq _ _ _ _ _ _ _ _ _ _ (Bridge.edge_eq _ _ _ _ _)).symm
  · obtain ⟨g0, g1, g2, g3, g4, g5, g6, g7, g8⟩ := hagree c
    rw [Cert.ReferenceIdeal.Read.val_main_v23_eq, g0, g1, g2, g3, g4]
    exact (Bridge.edge_eq _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, trivial, algebraic⟩

end Cert.Proof

end
